-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S64x64 : Shape := ⟨2, ![64, 64]⟩
abbrev S64x1 : Shape := ⟨2, ![64, 1]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S16x2048x64 .f32) (main_arg1 : FVec F S16x2048x2048 .f32) (main_arg2 : FVec F S64x64 .f32) (main_arg3 : FVec F S64x1 .f32) (main_arg4 : FVec F S64x1 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S16x2048x64 : Shape := ⟨3, ![16, 2048, 64]⟩
abbrev S16x2048x2048 : Shape := ⟨3, ![16, 2048, 2048]⟩
abbrev S64x64 : Shape := ⟨2, ![64, 64]⟩
abbrev S64x1 : Shape := ⟨2, ![64, 1]⟩
abbrev S16x2048x1 : Shape := ⟨3, ![16, 2048, 1]⟩
abbrev S1x512x64 : Shape := ⟨3, ![1, 512, 64]⟩
abbrev S1x512x1 : Shape := ⟨3, ![1, 512, 1]⟩
abbrev S512x64 : Shape := ⟨2, ![512, 64]⟩
abbrev S512x1 : Shape := ⟨2, ![512, 1]⟩
abbrev S16x1x2048 : Shape := ⟨3, ![16, 1, 2048]⟩
abbrev S1x256x1 : Shape := ⟨3, ![1, 256, 1]⟩
abbrev S1x1x2048 : Shape := ⟨3, ![1, 1, 2048]⟩
abbrev S1x256x2048 : Shape := ⟨3, ![1, 256, 2048]⟩
abbrev S1x2048x64 : Shape := ⟨3, ![1, 2048, 64]⟩
abbrev S1x256x64 : Shape := ⟨3, ![1, 256, 64]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩
abbrev S2048x64 : Shape := ⟨2, ![2048, 64]⟩
abbrev S256x64 : Shape := ⟨2, ![256, 64]⟩

abbrev nBuf : Space → Nat
  | .hbm => 10
  | .vmem => 21
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S64x64, .f32⟩
  | .hbm, ⟨3, _⟩ => ⟨S64x1, .f32⟩
  | .hbm, ⟨4, _⟩ => ⟨S64x1, .f32⟩
  | .hbm, ⟨5, _⟩ => ⟨S16x2048x64, .f32⟩
  | .hbm, ⟨6, _⟩ => ⟨S16x2048x1, .f32⟩
  | .hbm, ⟨7, _⟩ => ⟨S16x2048x1, .f32⟩
  | .hbm, ⟨8, _⟩ => ⟨S16x1x2048, .f32⟩
  | .hbm, ⟨9, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S64x64, .f32⟩
  | .local _ .vmem, ⟨3, _⟩ => ⟨S64x1, .f32⟩
  | .local _ .vmem, ⟨4, _⟩ => ⟨S64x1, .f32⟩
  | .local _ .vmem, ⟨5, _⟩ => ⟨S1x512x64, .f32⟩
  | .local _ .vmem, ⟨6, _⟩ => ⟨S1x512x64, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x256x1, .f32⟩
  | .local _ .vmem, ⟨12, _⟩ => ⟨S1x256x1, .f32⟩
  | .local _ .vmem, ⟨13, _⟩ => ⟨S1x1x2048, .f32⟩
  | .local _ .vmem, ⟨14, _⟩ => ⟨S1x1x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x2048x64, .f32⟩
  | .local _ .vmem, ⟨18, _⟩ => ⟨S1x2048x64, .f32⟩
  | .local _ .vmem, ⟨19, _⟩ => ⟨S1x256x64, .f32⟩
  | .local _ .vmem, ⟨20, _⟩ => ⟨S1x256x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S512x64_S1x512x64 : S512x64.ShapeCasts S1x512x64
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  transposes_S16x2048x1_S16x1x2048_0_2_1 : S16x2048x1.Transposes [0, 2, 1] S16x1x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S256x1_S256x2048 : S256x1.Broadcasts S256x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S16x2048x1.size a
  hwx0_5 : ∀ i : grid0.Coords, EltTy.bits .f32 = 32 ∨ (Rect.block (s := S16x2048x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S16x2048x1.size a
  hwx0_6 : ∀ i : grid0.Coords, EltTy.bits .f32 = 32 ∨ (Rect.block (s := S16x2048x1) S1x512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S16x2048x1.size a
  hwx1_0 : ∀ i : grid1.Coords, EltTy.bits .f32 = 32 ∨ (Rect.block (s := S16x2048x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S16x1x2048.size a
  hwx1_1 : ∀ i : grid1.Coords, EltTy.bits .f32 = 32 ∨ (Rect.block (s := S16x1x2048) S1x1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S16x2048x2048.size a
  hwx1_2 : ∀ i : grid1.Coords, EltTy.bits .f32 = 32 ∨ (Rect.block (s := S16x2048x2048) S1x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x64.size a ≤ S16x2048x64.size a
  hwx1_3 : ∀ i : grid1.Coords, EltTy.bits .f32 = 32 ∨ (Rect.block (s := S16x2048x64) S1x2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S16x2048x64.size a
  hwx1_4 : ∀ i : grid1.Coords, EltTy.bits .f32 = 32 ∨ (Rect.block (s := S16x2048x64) S1x256x64.size (cc1_transform_4 i) (hinb1_4 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_1) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1x2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S64x64 : Shape := ⟨2, ![64, 64]⟩
abbrev S64x1 : Shape := ⟨2, ![64, 1]⟩
abbrev S16x2048x1 : Shape := ⟨3, ![16, 2048, 1]⟩
abbrev S16x1x2048 : Shape := ⟨3, ![16, 1, 2048]⟩
abbrev S_ : Shape := ⟨0, ![]⟩
abbrev S16x2048 : Shape := ⟨2, ![16, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S64x64, .f32⟩
  | .hbm, ⟨3, _⟩ => ⟨S64x1, .f32⟩
  | .hbm, ⟨4, _⟩ => ⟨S64x1, .f32⟩
  | .hbm, ⟨5, _⟩ => ⟨S16x2048x64, .f32⟩
  | .hbm, ⟨6, _⟩ => ⟨S16x2048x1, .f32⟩
  | .hbm, ⟨7, _⟩ => ⟨S16x2048x1, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S_, .f32⟩
  | .hbm, ⟨14, _⟩ => ⟨S16x2048x2048, .f32⟩
  | .hbm, ⟨15, _⟩ => ⟨S16x2048x2048, .i1⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  transposes_S16x2048x1_S16x1x2048_0_2_1 : S16x2048x1.Transposes [0, 2, 1] S16x1x2048
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  dot_S16x2048x64_S64x64_S16x2048x64_2_0_01_1_n_n_wf : DotDims.WF S16x2048x64 S64x64 S16x2048x64 [2] [0] [0, 1] [1] [] []
  dot_S16x2048x64_S64x1_S16x2048x1_2_0_01_1_n_n_wf : DotDims.WF S16x2048x64 S64x1 S16x2048x1 [2] [0] [0, 1] [1] [] []
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x64_S64x1_S16x2048x1_2_0_01_1_n_n : DotDims S16x2048x64 S64x1 S16x2048x1 where
  lhsContracting := [2]
  rhsContracting := [0]
  lhsNonContracting := [0, 1]
  rhsNonContracting := [1]
  lhsBatch := []
  rhsBatch := []
  wf := dot_S16x2048x64_S64x1_S16x2048x1_2_0_01_1_n_n_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Dense additive graph attention over the extended reals, as functions of the argument arrays.

  For node features h[b, n, f], a projection W[f, o] and two attention vectors a1[o, 0], a2[o, 0]:
  the projected features are  Wh[b, n, o] = Σ_f h[b, n, f] · W[f, o],  each node's two scores are
  u[b, n] = Σ_o Wh[b, n, o] · a1[o, 0]  and  v[b, n] = Σ_o Wh[b, n, o] · a2[o, 0],  the logit of the pair (n, m)
  is  leaky(u[b, n] + v[b, m]) + bias[b, n, m]  with  leaky(s) = s for s ≥ 0 and 0.2 · s otherwise, each row of
  logits is turned into weights by the shifted softmax  exp(l_m − top) / Σ_k exp(l_k − top)  with  top  the row's
  maximum (folded from −∞), and the result is  Σ_m weight[b, n, m] · Wh[b, m, o].
  Every sum is a finite sum of extended reals; nothing here assumes an entry finite.
-/
import Idealize.ShloMosaic.PureOps.Ideal.Laws
import Idealize.ShloMosaic.Lib.ValueIdx

noncomputable section

open scoped BigOperators

namespace Cert.Gat

open Idealize.ShloMosaic Idealize.ShloMosaic.ValueIdx

/-- The projected feature  Wh[b, n, o] = Σ_f h[b, n, f] · W[f, o]. -/
def wh (h : FVec Ideal ⟨3, ![16, 2048, 64]⟩ .f32) (W : FVec Ideal ⟨2, ![64, 64]⟩ .f32)
    (b : Fin 16) (n : Fin 2048) (o : Fin 64) : EReal :=
  ∑ f : Fin 64, h (ix3 b n f) * W (ix2 f o)

/-- A node's score against an attention vector:  Σ_o Wh[b, n, o] · a[o, 0]. -/
def score (h : FVec Ideal ⟨3, ![16, 2048, 64]⟩ .f32) (W : FVec Ideal ⟨2, ![64, 64]⟩ .f32)
    (a : FVec Ideal ⟨2, ![64, 1]⟩ .f32) (b : Fin 16) (n : Fin 2048) : EReal :=
  ∑ o : Fin 64, wh h W b n o * a (ix2 o (0 : Fin 1))

/-- The projected features as the array [16, 2048, 64]. -/
def whArr (h : FVec Ideal ⟨3, ![16, 2048, 64]⟩ .f32) (W : FVec Ideal ⟨2, ![64, 64]⟩ .f32) :
    FVec Ideal ⟨3, ![16, 2048, 64]⟩ .f32 := fun i => wh h W (i 0) (i 1) (i 2)

/-- The scores as the column array [16, 2048, 1]. -/
def scoreArr (h : FVec Ideal ⟨3, ![16, 2048, 64]⟩ .f32) (W : FVec Ideal ⟨2, ![64, 64]⟩ .f32)
    (a : FVec Ideal ⟨2, ![64, 1]⟩ .f32) : FVec Ideal ⟨3, ![16, 2048, 1]⟩ .f32 := fun i => score h W a (i 0) (i 1)

/-- The scores as the row array [16, 1, 2048]. -/
def scoreRowArr (h : FVec Ideal ⟨3, ![16, 2048, 64]⟩ .f32) (W : FVec Ideal ⟨2, ![64, 64]⟩ .f32)
    (a : FVec Ideal ⟨2, ![64, 1]⟩ .f32) : FVec Ideal ⟨3, ![16, 1, 2048]⟩ .f32 := fun i => score h W a (i 0) (i 2)

theorem whArr_apply (h : FVec Ideal ⟨3, ![16, 2048, 64]⟩ .f32) (W : FVec Ideal ⟨2, ![64, 64]⟩ .f32)
    (b : Fin 16) (n : Fin 2048) (o : Fin 64) : whArr h W (ix3 b n o) = wh h W b n o := rfl

theorem scoreArr_apply (h : FVec Ideal ⟨3, ![16, 2048, 64]⟩ .f32) (W : FVec Ideal ⟨2, ![64, 64]⟩ .f32)
    (a : FVec Ideal ⟨2, ![64, 1]⟩ .f32) (b : Fin 16) (n : Fin 2048) (u : Fin 1) :
    scoreArr h W a (ix3 b n u) = score h W a b n := rfl

theorem scoreRowArr_apply (h : FVec Ideal ⟨3, ![16, 2048, 64]⟩ .f32) (W : FVec Ideal ⟨2, ![64, 64]⟩ .f32)
    (a : FVec Ideal ⟨2, ![64, 1]⟩ .f32) (b : Fin 16) (u : Fin 1) (n : Fin 2048) :
    scoreRowArr h W a (ix3 b u n) = score h W a b n := rfl

/-- The leaky rectifier with slope 0.2 (the f32 word 0x3E4CCCCD) below zero:  s  where  s ≥ 0,  0.2 · s  elsewhere. -/
def leaky (s : EReal) : EReal :=
  Scalar.select (FloatOps.cmpf (F := Ideal) (φ := .f32) .oge s (Ideal.ofBits .f32 0x00000000#32)) s
    (Ideal.ofBits .f32 0x3E4CCCCD#32 * s)

/-- The logit of the pair (n, m) in batch b, from the score column, the score row and the bias. -/
def logit (u : FVec Ideal ⟨3, ![16, 2048, 1]⟩ .f32) (vt : FVec Ideal ⟨3, ![16, 1, 2048]⟩ .f32)
    (bias : FVec Ideal ⟨3, ![16, 2048, 2048]⟩ .f32) (b : Fin 16) (n m : Fin 2048) : EReal :=
  leaky (u (ix3 b n (0 : Fin 1)) + vt (ix3 b (0 : Fin 1) m)) + bias (ix3 b n m)

/-- The top of a row of logits: the maximum folded from −∞ (the f32 word 0xFF800000), taken once more against −∞. -/
def rowTop (l : Fin 2048 → EReal) : EReal :=
  max (Ideal.ofBits .f32 0xFF800000#32)
    ((Finset.univ : Finset (Fin 2048)).fold max (Ideal.ofBits .f32 0xFF800000#32) l)

/-- The unnormalised weight  exp(l_m − top). -/
def expShift (l : Fin 2048 → EReal) (m : Fin 2048) : EReal := Ideal.exp (l m - rowTop l)

/-- The softmax weight  exp(l_m − top) / Σ_k exp(l_k − top). -/
def weight (l : Fin 2048 → EReal) (m : Fin 2048) : EReal :=
  Ideal.div (expShift l m) (∑ k : Fin 2048, expShift l k)

/-- The attention stage as a function of its four arrays: the score column u, the score row vt, the bias and the
    values x:  out[b, n, o] = Σ_m weight(logits of row (b, n))_m · x[b, m, o]. -/
def attnOut (u : FVec Ideal ⟨3, ![16, 2048, 1]⟩ .f32) (vt : FVec Ideal ⟨3, ![16, 1, 2048]⟩ .f32)
    (bias : FVec Ideal ⟨3, ![16, 2048, 2048]⟩ .f32) (x : FVec Ideal ⟨3, ![16, 2048, 64]⟩ .f32) :
    FVec Ideal ⟨3, ![16, 2048, 64]⟩ .f32 :=
  fun i => ∑ m : Fin 2048, weight (logit u vt bias (i 0) (i 1)) m * x (ix3 (i 0) m (i 2))

theorem attnOut_apply (u : FVec Ideal ⟨3, ![16, 2048, 1]⟩ .f32) (vt : FVec Ideal ⟨3, ![16, 1, 2048]⟩ .f32)
    (bias : FVec Ideal ⟨3, ![16, 2048, 2048]⟩ .f32) (x : FVec Ideal ⟨3, ![16, 2048, 64]⟩ .f32)
    (b : Fin 16) (n : Fin 2048) (o : Fin 64) :
    attnOut u vt bias x (ix3 b n o) = ∑ m : Fin 2048, weight (logit u vt bias b n) m * x (ix3 b m o) := rfl

/-- The whole layer as a function of the five argument arrays. -/
def layer (h : FVec Ideal ⟨3, ![16, 2048, 64]⟩ .f32) (bias : FVec Ideal ⟨3, ![16, 2048, 2048]⟩ .f32)
    (W : FVec Ideal ⟨2, ![64, 64]⟩ .f32) (a1 a2 : FVec Ideal ⟨2, ![64, 1]⟩ .f32) :
    FVec Ideal ⟨3, ![16, 2048, 64]⟩ .f32 :=
  attnOut (scoreArr h W a1) (scoreRowArr h W a2) bias (whArr h W)

end Cert.Gat

end
-- ==== Proof.KRun.lean ====
/-
  The idealized kernel's run with its result named.

  @main is three segments: the projection call, one host transpose, the attention call. The contents of every
  unscoped buffer at each segment boundary are a fold from the launch memory (W0 at launch, W1 after the first call,
  W2 after the transpose, W3 at the return). The run below is the launch over those three segments with the result
  buffer named in its post: every execution ends with the result buffer at W3's contents there and the five argument
  arrays as launched (no segment writes an argument, so the fold at an argument walks back to the launch memory).
-/
import proofs.«163712_j120259084551_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last boundary's
    contents and every argument array as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.KRun

end
-- ==== Proof.KFold.lean ====
/-
  The contents of the attention call's arrays, read back through the segment boundaries.

  At the return the result buffer holds what the attention call's write-backs leave. When that call is entered its
  score column and its value array are what the projection call's write-backs left in its second and first output
  (the transpose in between writes neither), its score row is the transpose of the projection call's third output,
  and its bias is the launch memory's (no segment writes it). The projection call is entered from the launch memory.
-/
import proofs.«163712_j120259084551_1_alg».proof.Proof.Gen.KernelIdeal.Frame
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The result buffer at the return: what the attention call's write-backs leave in its output array. -/
theorem result_eq (c : Dev nD) :
    W3 m ρ c (Proc.devRef .tc main_v2) = (dat1 (V2 m ρ) c).arrAt 4 cfg1.N := W3_arr m ρ c 4

/-- The transpose writes no buffer but its own result. -/
theorem after_transpose_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- The attention call's score column is the projection call's second output. -/
theorem entry_col (c : Dev nD) : V2 m ρ c main_v0_1 = (dat0 (V0 m ρ) c).arrAt 5 cfg0.N :=
  (after_transpose_of_ne m ρ c main_v0_1 (by decide)).trans (W1_arr m ρ c 5)

/-- The attention call's value array is the projection call's first output. -/
theorem entry_val (c : Dev nD) : V2 m ρ c main_v0_0 = (dat0 (V0 m ρ) c).arrAt 4 cfg0.N :=
  (after_transpose_of_ne m ρ c main_v0_0 (by decide)).trans (W1_arr m ρ c 4)

/-- The attention call's bias is the launch memory's. -/
theorem entry_bias (c : Dev nD) : V2 m ρ c main_arg1 = m ((c : Thread nD τ).loc main_arg1) :=
  (after_transpose_of_ne m ρ c main_arg1 (by decide)).trans (W1_of_ne m ρ c main_arg1 (by decide))

/-- The attention call's score row is the transpose of the projection call's third output. -/
theorem entry_row (c : Dev nD) :
    V2 m ρ c main_v1 = transpose S16x1x2048 [0, 2, 1] ((dat0 (V0 m ρ) c).arrAt 6 cfg0.N) transposes_S16x2048x1_S16x1x2048_0_2_1 := by
  rw [← W1_arr m ρ c 6]
  show StableHlo.after hostOps1 (W1 m ρ c) (Proc.devRef .tc main_v1) = _
  after_results

end Cert.KernelIdeal.KFold

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.ProjPayload.lean ====
/-
  The projection body's values at an index, over the extended reals.

  For a block x0 of node features [1, 512, 64], the projection matrix x1 [64, 64] and an attention vector x2 [64, 1]:
  the product block has at (r, o) the entry  Σ_f x0(0, r, f) · x1(f, o);  given back its leading unit axis it is the same
  entry at (0, r, o);  and the score column has at (0, r, 0) the entry  Σ_o (Σ_f x0(0, r, f) · x1(f, o)) · x2(o, 0).
-/
import proofs.«163712_j120259084551_1_alg».proof.Proof.Gen.KernelIdeal.Skeleton
import proofs.«163712_j120259084551_1_alg».proof.Proof.LibMatmulPlain
import proofs.«163712_j120259084551_1_alg».proof.Proof.LibRows

noncomputable section

open scoped BigOperators

namespace Cert.KernelIdeal.Proj

open Cert.KernelIdeal Cert.KernelIdeal.Gen Idealize.ShloMosaic Idealize.ShloMosaic.ValueIdx

/-- The product block at (r, o): the block's leading unit axis dropped (row r of the matrix is row (0, r) of the block),
    then the matrix product into the zero matrix. -/
theorem pay1_apply (x0 : Vec Ideal S1x512x64 .f32) (x1 : Vec Ideal S64x64 .f32) (r : Fin 512) (o : Fin 64) :
    k0_pay1 (F := Ideal) x0 x1 (ix2 r o) = ∑ f : Fin 64, x0 (ix3 (0 : Fin 1) r f) * x1 (ix2 f o) := by
  unfold k0_pay1
  refine (Cert.LibMatmulPlain.matmul_plain_zero_apply (M := 512) (K := 64) (N := 64)
    dot_S512x64_S64x64_S512x64_1_0_0_1_n_n rfl none _ x1 r o).trans ?_
  refine Finset.sum_congr rfl fun f _ => ?_
  exact congrArg (· * x1 (ix2 f o))
    (Cert.LibRows.flatten_rows_apply x0 shapeCasts_S1x512x64_S512x64 (0 : Fin 1) r f r (by show r.val = 0 * 512 + r.val; omega))

/-- The product block with its leading unit axis restored: entry (u, r, o) is the matrix's (r, o). -/
theorem pay2_apply (x0 : Vec Ideal S1x512x64 .f32) (x1 : Vec Ideal S64x64 .f32) (u : Fin 1) (r : Fin 512) (o : Fin 64) :
    k0_pay2 (F := Ideal) x0 x1 (ix3 u r o) = ∑ f : Fin 64, x0 (ix3 (0 : Fin 1) r f) * x1 (ix2 f o) := by
  unfold k0_pay2
  refine (Cert.LibRows.unflatten_rows_apply (k0_pay1 (F := Ideal) x0 x1) shapeCasts_S512x64_S1x512x64 u r o r ?_).trans
    (pay1_apply x0 x1 r o)
  have hu : u.val = 0 := by omega
  show r.val = u.val * 512 + r.val
  omega

/-- The product of the product block with a column [64, 1], with a leading unit axis: entry (u, r, z) is
    Σ_o (product block)(r, o) · x2(o, 0). -/
theorem score_apply (x0 : Vec Ideal S1x512x64 .f32) (x1 : Vec Ideal S64x64 .f32) (x2 : Vec Ideal S64x1 .f32)
    (u : Fin 1) (r : Fin 512) (z : Fin 1) :
    shapeCast S1x512x1 (FloatOps.matmul (φ₁ := .f32) (φ₂ := .f32) dot_S512x64_S64x1_S512x1_1_0_0_1_n_n none (k0_pay1 (F := Ideal) x0 x1) x2
        (constant (F := Ideal) S512x1 .f32 0x00000000#32)) shapeCasts_S512x1_S1x512x1 (ix3 u r z)
      = ∑ o : Fin 64, (∑ f : Fin 64, x0 (ix3 (0 : Fin 1) r f) * x1 (ix2 f o)) * x2 (ix2 o (0 : Fin 1)) := by
  obtain rfl : z = 0 := Subsingleton.elim _ _
  refine (Cert.LibRows.unflatten_rows_apply _ shapeCasts_S512x1_S1x512x1 u r (0 : Fin 1) r ?_).trans ?_
  · have hu : u.val = 0 := by omega
    show r.val = u.val * 512 + r.val
    omega
  refine (Cert.LibMatmulPlain.matmul_plain_zero_apply (M := 512) (K := 64) (N := 1)
    dot_S512x64_S64x1_S512x1_1_0_0_1_n_n rfl none (k0_pay1 (F := Ideal) x0 x1) x2 r (0 : Fin 1)).trans ?_
  exact Finset.sum_congr rfl fun o _ => congrArg (· * x2 (ix2 o (0 : Fin 1))) (pay1_apply x0 x1 r o)

/-- The first score column at (u, r, z). -/
theorem pay3_apply (x0 : Vec Ideal S1x512x64 .f32) (x1 : Vec Ideal S64x64 .f32) (x2 : Vec Ideal S64x1 .f32)
    (u : Fin 1) (r : Fin 512) (z : Fin 1) :
    k0_pay3 (F := Ideal) x0 x1 x2 (ix3 u r z)
      = ∑ o : Fin 64, (∑ f : Fin 64, x0 (ix3 (0 : Fin 1) r f) * x1 (ix2 f o)) * x2 (ix2 o (0 : Fin 1)) :=
  score_apply x0 x1 x2 u r z

/-- The second score column at (u, r, z). -/
theorem pay4_apply (x0 : Vec Ideal S1x512x64 .f32) (x1 : Vec Ideal S64x64 .f32) (x3 : Vec Ideal S64x1 .f32)
    (u : Fin 1) (r : Fin 512) (z : Fin 1) :
    k0_pay4 (F := Ideal) x0 x1 x3 (ix3 u r z)
      = ∑ o : Fin 64, (∑ f : Fin 64, x0 (ix3 (0 : Fin 1) r f) * x1 (ix2 f o)) * x3 (ix2 o (0 : Fin 1)) :=
  score_apply x0 x1 x3 u r z

end Cert.KernelIdeal.Proj

end
-- ==== Proof.Proj.lean ====
/-
  The projection stage's three output arrays, as functions of the arrays the stage finds.

  The stage walks a 16 × 4 grid; at the point (b, i) it takes rows 512·i … 512·i + 511 of batch b of the node
  features h, the whole projection matrix W and the whole attention vectors a1, a2, and writes back the same rows of
  batch b of three arrays: the projected features and the two score columns. An element (0, r, f) of the feature
  block at that point is h[b, 512·i + r, f]; the matrix and the vectors are read where they stand. Every row of every
  batch is in the block of exactly the point (b, row / 512), so after the stage the three arrays are, index by index,
  Wh[b, n, o] = Σ_f h[b, n, f] · W[f, o]  and  Σ_o Wh[b, n, o] · a[o, 0]  for a = a1 and a = a2.
-/
import proofs.«163712_j120259084551_1_alg».proof.Proof.Gen.KernelIdeal.Frame
import proofs.«163712_j120259084551_1_alg».proof.Proof.ProjPayload
import proofs.«163712_j120259084551_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The origin of a three-axis block. -/
theorem origin3 : (![0, 0, 0] : Fin 3 → Nat) = fun _ => 0 := funext fun a => by fin_cases a <;> rfl

/-- The origin of a matrix. -/
theorem origin2 : (![0, 0] : Fin 2 → Nat) = fun _ => 0 := funext fun a => by fin_cases a <;> rfl

/-- The block indices over the grid: the feature block and the three output blocks share their batch and row-block
    indices and sit at column block 0; the matrix and the two vectors are always at block (0, 0); the batch index is
    below 16 and the row-block index below 4. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_6.index t (0 : Fin 3) = win0_4.index t (0 : Fin 3) ∧ win0_6.index t (1 : Fin 3) = win0_4.index t (1 : Fin 3)
    ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0
    ∧ win0_4.index t (0 : Fin 3) ≤ 15 ∧ win0_4.index t (1 : Fin 3) ≤ 3 :=
  (by decide +kernel : ∀ t : Fin grid0.N, _)

/-- Every (batch, row block) is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-! ## The input blocks, element by element -/

/-- Element (0, r, f) of the feature block at point t is h at (batch of t, 512 · (row block of t) + r, f). -/
theorem feat_blk (c : Dev nD) (t : Fin cfg0.N) (r : Fin 512) (f : Fin 64) (b : Fin 16) (n : Fin 2048)
    (hb : b.val = win0_4.index t (0 : Fin 3)) (hn : n.val = win0_4.index t (1 : Fin 3) * 512 + r.val) :
    iblk0 (F := Ideal) V c 0 t (ix3 (0 : Fin 1) r f) = V c main_arg0 (ix3 b n f) := by
  obtain ⟨e0, e1, e2, -⟩ := idx_facts t
  show V c main_arg0 (((cfg0.win 0).blk t).view.emb (ix3 (0 : Fin 1) r f)) = V c main_arg0 (ix3 b n f)
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 64 + 1 * f.val = f.val; omega

/-- The projection matrix's block at any point is the matrix. -/
theorem mat_blk (c : Dev nD) (t : Fin cfg0.N) (f o : Fin 64) :
    iblk0 (F := Ideal) V c 1 t (ix2 f o) = V c main_arg2 (ix2 f o) := by
  obtain ⟨-, -, -, -, -, -, -, -, -, e0, e1, -⟩ := idx_facts t
  show V c main_arg2 (((cfg0.win 1).blk t).view.emb (ix2 f o)) = V c main_arg2 (ix2 f o)
  refine congrArg (V c main_arg2) (funext fun a => Fin.ext ?_)
  match a with
  | ⟨0, _⟩ => show win0_1.index t (0 : Fin 2) * 64 + 1 * f.val = f.val; omega
  | ⟨1, _⟩ => show win0_1.index t (1 : Fin 2) * 64 + 1 * o.val = o.val; omega

/-- The first attention vector's block at any point is the vector. -/
theorem vec1_blk (c : Dev nD) (t : Fin cfg0.N) (o : Fin 64) :
    iblk0 (F := Ideal) V c 2 t (ix2 o (0 : Fin 1)) = V c main_arg3 (ix2 o (0 : Fin 1)) := by
  obtain ⟨-, -, -, -, -, -, -, -, -, -, -, e0, e1, -⟩ := idx_facts t
  show V c main_arg3 (((cfg0.win 2).blk t).view.emb (ix2 o (0 : Fin 1))) = V c main_arg3 (ix2 o (0 : Fin 1))
  refine congrArg (V c main_arg3) (funext fun a => Fin.ext ?_)
  match a with
  | ⟨0, _⟩ => show win0_2.index t (0 : Fin 2) * 64 + 1 * o.val = o.val; omega
  | ⟨1, _⟩ => show win0_2.index t (1 : Fin 2) * 1 + 1 * 0 = 0; omega

/-- The second attention vector's block at any point is the vector. -/
theorem vec2_blk (c : Dev nD) (t : Fin cfg0.N) (o : Fin 64) :
    iblk0 (F := Ideal) V c 3 t (ix2 o (0 : Fin 1)) = V c main_arg4 (ix2 o (0 : Fin 1)) := by
  obtain ⟨-, -, -, -, -, -, -, -, -, -, -, -, -, e0, e1, -⟩ := idx_facts t
  show V c main_arg4 (((cfg0.win 3).blk t).view.emb (ix2 o (0 : Fin 1))) = V c main_arg4 (ix2 o (0 : Fin 1))
  refine congrArg (V c main_arg4) (funext fun a => Fin.ext ?_)
  match a with
  | ⟨0, _⟩ => show win0_3.index t (0 : Fin 2) * 64 + 1 * o.val = o.val; omega
  | ⟨1, _⟩ => show win0_3.index t (1 : Fin 2) * 1 + 1 * 0 = 0; omega

/-- The projected feature of the blocks at point t, at row r and column o, is the projected-feature array at the
    index i whose batch is t's, whose row is the block's row r and whose column is o. -/
theorem wh_blk (c : Dev nD) (t : Fin cfg0.N) (r : Fin 512) (o : Fin 64) (i : S16x2048x64.Idx)
    (hb : (i 0).val = win0_4.index t (0 : Fin 3)) (hn : (i 1).val = win0_4.index t (1 : Fin 3) * 512 + r.val)
    (ho : (i 2).val = o.val)
    (x0 : Vec Ideal S1x512x64 .f32) (x1 : Vec Ideal S64x64 .f32)
    (h0 : x0 = iblk0 (F := Ideal) V c 0 t) (h1 : x1 = iblk0 (F := Ideal) V c 1 t) :
    (∑ f : Fin 64, x0 (ix3 (0 : Fin 1) r f) * x1 (ix2 f o))
      = Cert.Gat.whArr (V c main_arg0) (V c main_arg2) i := by
  subst h0 h1
  obtain ⟨b, n, o', rfl⟩ : ∃ (b : Fin 16) (n : Fin 2048) (o' : Fin 64), i = ix3 b n o' := ⟨i 0, i 1, i 2, eq_ix3 i⟩
  obtain rfl : o' = o := Fin.ext ho
  rw [Cert.Gat.whArr_apply]
  unfold Cert.Gat.wh
  refine Finset.sum_congr rfl fun f _ => ?_
  exact congrArg₂ (· * ·) (feat_blk V c t r f b n hb hn) (mat_blk V c t f o')

/-! ## The projected features -/

/-- What point t writes back to the projected features is block t of the projected-feature array. -/
theorem flushed_wh (c : Dev nD) (t : Fin cfg0.N) :
    (dat0 (F := Ideal) V c).flushed 4 t
      = ((cfg0.win 4).blk t).view.read (Elt Ideal) (Cert.Gat.whArr (V c main_arg0) (V c main_arg2)) := by
  show (cfg0.win 4).cut (grid0.coords t) ((dat0 (F := Ideal) V c).after 4 t) = _
  rw [after0_4]
  unfold out0_4
  rw [View.canon_unit_zero origin3]
  simp only [View.ld_unit_zero (S := S1x512x64) origin3, View.ld_unit_zero (S := S64x64) origin2]
  funext y
  revert y
  show ∀ y : S1x512x64.Idx, k0_pay2 (F := Ideal) (iblk0 V c 0 t) (iblk0 V c 1 t) y
    = Cert.Gat.whArr (V c main_arg0) (V c main_arg2) (((cfg0.win 4).blk t).view.emb y)
  intro y
  obtain ⟨u, r, o, rfl⟩ : ∃ (u : Fin 1) (r : Fin 512) (o : Fin 64), y = ix3 u r o := ⟨y 0, y 1, y 2, eq_ix3 y⟩
  have hu : u.val = 0 := by omega
  obtain ⟨-, -, -, -, -, -, -, -, -, -, -, -, -, -, -, e2, -, -⟩ := idx_facts t
  refine (pay2_apply _ _ u r o).trans ?_
  exact wh_blk V c t r o _
    (by show win0_4.index t (0 : Fin 3) * 1 + 1 * u.val = win0_4.index t (0 : Fin 3); omega)
    (by show win0_4.index t (1 : Fin 3) * 512 + 1 * r.val = win0_4.index t (1 : Fin 3) * 512 + r.val; omega)
    (by show win0_4.index t (2 : Fin 3) * 64 + 1 * o.val = o.val; omega) _ _ rfl rfl

/-- An index of the projected-feature array is in point t's block iff each coordinate is in the block's range. -/
theorem mem_blk_wh (t : Fin cfg0.N) (i : S16x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- Every index of the projected-feature array is in the block of the point (batch, row / 512). -/
theorem covered_wh (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk_wh]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE PROJECTED FEATURES after the stage:  Wh[b, n, o] = Σ_f h[b, n, f] · W[f, o]  at every index. -/
theorem final_wh (c : Dev nD) :
    (dat0 (F := Ideal) V c).arrAt 4 cfg0.N = Cert.Gat.whArr (V c main_arg0) (V c main_arg2) :=
  (dat0 (F := Ideal) V c).arrAt_eq_of_cover 4 _ (fun t _ => flushed_wh V c t) covered_wh

/-! ## The two score columns -/

/-- The score of the blocks at point t, at row r, against a vector whose block is the vector a, is the score-column
    array at the index i whose batch is t's and whose row is the block's row r. -/
theorem score_blk (c : Dev nD) (t : Fin cfg0.N) (r : Fin 512) (i : S16x2048x1.Idx)
    (hb : (i 0).val = win0_4.index t (0 : Fin 3)) (hn : (i 1).val = win0_4.index t (1 : Fin 3) * 512 + r.val)
    (x0 : Vec Ideal S1x512x64 .f32) (x1 : Vec Ideal S64x64 .f32) (x2 : Vec Ideal S64x1 .f32)
    (a : FVec Ideal ⟨2, ![64, 1]⟩ .f32)
    (h0 : x0 = iblk0 (F := Ideal) V c 0 t) (h1 : x1 = iblk0 (F := Ideal) V c 1 t)
    (h2 : ∀ o : Fin 64, x2 (ix2 o (0 : Fin 1)) = a (ix2 o (0 : Fin 1))) :
    (∑ o : Fin 64, (∑ f : Fin 64, x0 (ix3 (0 : Fin 1) r f) * x1 (ix2 f o)) * x2 (ix2 o (0 : Fin 1)))
      = Cert.Gat.scoreArr (V c main_arg0) (V c main_arg2) a i := by
  obtain ⟨b, n, z, rfl⟩ : ∃ (b : Fin 16) (n : Fin 2048) (z : Fin 1), i = ix3 b n z := ⟨i 0, i 1, i 2, eq_ix3 i⟩
  rw [Cert.Gat.scoreArr_apply]
  unfold Cert.Gat.score
  refine Finset.sum_congr rfl fun o _ => ?_
  exact congrArg₂ (· * ·) (wh_blk V c t r o (ix3 b n o) hb hn rfl x0 x1 h0 h1) (h2 o)

/-- What point t writes back to the first score column is block t of the score array against a1. -/
theorem flushed_u (c : Dev nD) (t : Fin cfg0.N) :
    (dat0 (F := Ideal) V c).flushed 5 t
      = ((cfg0.win 5).blk t).view.read (Elt Ideal)
          (Cert.Gat.scoreArr (V c main_arg0) (V c main_arg2) (V c main_arg3)) := by
  show (cfg0.win 5).cut (grid0.coords t) ((dat0 (F := Ideal) V c).after 5 t) = _
  rw [after0_5]
  unfold out0_5
  rw [View.canon_unit_zero origin3]
  simp only [View.ld_unit_zero (S := S1x512x64) origin3, View.ld_unit_zero (S := S64x64) origin2,
    View.ld_unit_zero (S := S64x1) origin2]
  funext y
  revert y
  show ∀ y : S1x512x1.Idx, k0_pay3 (F := Ideal) (iblk0 V c 0 t) (iblk0 V c 1 t) (iblk0 V c 2 t) y
    = Cert.Gat.scoreArr (V c main_arg0) (V c main_arg2) (V c main_arg3) (((cfg0.win 5).blk t).view.emb y)
  intro y
  obtain ⟨u, r, z, rfl⟩ : ∃ (u : Fin 1) (r : Fin 512) (z : Fin 1), y = ix3 u r z := ⟨y 0, y 1, y 2, eq_ix3 y⟩
  have hu : u.val = 0 := by omega
  obtain ⟨-, -, -, e0, e1, -⟩ := idx_facts t
  refine (pay3_apply _ _ _ u r z).trans ?_
  exact score_blk V c t r _
    (by show win0_5.index t (0 : Fin 3) * 1 + 1 * u.val = win0_4.index t (0 : Fin 3); omega)
    (by show win0_5.index t (1 : Fin 3) * 512 + 1 * r.val = win0_4.index t (1 : Fin 3) * 512 + r.val; omega)
    _ _ _ _ rfl rfl (fun o => vec1_blk V c t o)

/-- What point t writes back to the second score column is block t of the score array against a2. -/
theorem flushed_v (c : Dev nD) (t : Fin cfg0.N) :
    (dat0 (F := Ideal) V c).flushed 6 t
      = ((cfg0.win 6).blk t).view.read (Elt Ideal)
          (Cert.Gat.scoreArr (V c main_arg0) (V c main_arg2) (V c main_arg4)) := by
  show (cfg0.win 6).cut (grid0.coords t) ((dat0 (F := Ideal) V c).after 6 t) = _
  rw [after0_6]
  unfold out0_6
  rw [View.canon_unit_zero origin3]
  simp only [View.ld_unit_zero (S := S1x512x64) origin3, View.ld_unit_zero (S := S64x64) origin2,
    View.ld_unit_zero (S := S64x1) origin2]
  funext y
  revert y
  show ∀ y : S1x512x1.Idx, k0_pay4 (F := Ideal) (iblk0 V c 0 t) (iblk0 V c 1 t) (iblk0 V c 3 t) y
    = Cert.Gat.scoreArr (V c main_arg0) (V c main_arg2) (V c main_arg4) (((cfg0.win 6).blk t).view.emb y)
  intro y
  obtain ⟨u, r, z, rfl⟩ : ∃ (u : Fin 1) (r : Fin 512) (z : Fin 1), y = ix3 u r z := ⟨y 0, y 1, y 2, eq_ix3 y⟩
  have hu : u.val = 0 := by omega
  obtain ⟨-, -, -, -, -, -, e0, e1, -⟩ := idx_facts t
  refine (pay4_apply _ _ _ u r z).trans ?_
  exact score_blk V c t r _
    (by show win0_6.index t (0 : Fin 3) * 1 + 1 * u.val = win0_4.index t (0 : Fin 3); omega)
    (by show win0_6.index t (1 : Fin 3) * 512 + 1 * r.val = win0_4.index t (1 : Fin 3) * 512 + r.val; omega)
    _ _ _ _ rfl rfl (fun o => vec2_blk V c t o)

/-- An index of the first score column is in point t's block iff each coordinate is in the block's range. -/
theorem mem_blk_u (t : Fin cfg0.N) (i : S16x2048x1.Idx) :
    i ∈ ((cfg0.win 5).blk t).view.set ↔ ∀ a : Fin 3, win0_5.index t a * S1x512x1.size a ≤ (i a).val
      ∧ (i a).val < win0_5.index t a * S1x512x1.size a + S1x512x1.size a := by
  show i ∈ ((View.whole main_v0_1).slice (win0_5.rect t)).set ↔ _
  rw [View.set_slice_whole, Rect.mem_set_unit]
  exact Iff.rfl

/-- An index of the second score column is in point t's block iff each coordinate is in the block's range. -/
theorem mem_blk_v (t : Fin cfg0.N) (i : S16x2048x1.Idx) :
    i ∈ ((cfg0.win 6).blk t).view.set ↔ ∀ a : Fin 3, win0_6.index t a * S1x512x1.size a ≤ (i a).val
      ∧ (i a).val < win0_6.index t a * S1x512x1.size a + S1x512x1.size a := by
  show i ∈ ((View.whole main_v0_2).slice (win0_6.rect t)).set ↔ _
  rw [View.set_slice_whole, Rect.mem_set_unit]
  exact Iff.rfl

/-- Every index of the first score column is in the block of the point (batch, row / 512). -/
theorem covered_u (i : S16x2048x1.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 1 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, e0, e1, e2, -⟩ := idx_facts t
  refine ⟨t, flush0_5 t, ?_⟩
  rw [mem_blk_u]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1 ≤ (i 2).val ∧ (i 2).val < win0_5.index t (2 : Fin 3) * 1 + 1; omega

/-- Every index of the second score column is in the block of the point (batch, row / 512). -/
theorem covered_v (i : S16x2048x1.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 1 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  obtain ⟨-, -, -, -, -, -, e0, e1, e2, -⟩ := idx_facts t
  refine ⟨t, flush0_6 t, ?_⟩
  rw [mem_blk_v]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1 ≤ (i 2).val ∧ (i 2).val < win0_6.index t (2 : Fin 3) * 1 + 1; omega

/-- THE FIRST SCORE COLUMN after the stage:  Σ_o Wh[b, n, o] · a1[o, 0]  at every index. -/
theorem final_u (c : Dev nD) :
    (dat0 (F := Ideal) V c).arrAt 5 cfg0.N = Cert.Gat.scoreArr (V c main_arg0) (V c main_arg2) (V c main_arg3) :=
  (dat0 (F := Ideal) V c).arrAt_eq_of_cover 5 _ (fun t _ => flushed_u V c t) covered_u

/-- THE SECOND SCORE COLUMN after the stage:  Σ_o Wh[b, n, o] · a2[o, 0]  at every index. -/
theorem final_v (c : Dev nD) :
    (dat0 (F := Ideal) V c).arrAt 6 cfg0.N = Cert.Gat.scoreArr (V c main_arg0) (V c main_arg2) (V c main_arg4) :=
  (dat0 (F := Ideal) V c).arrAt_eq_of_cover 6 _ (fun t _ => flushed_v V c t) covered_v

end Cert.KernelIdeal.Proj

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.AttnPayload.lean ====
/-
  The attention stage's block computation, read at one entry.

  One block holds 256 rows of one batch: the rows' scores u (a column), all 2048 columns' scores v (a row), the rows'
  bias entries, and all 2048 value rows. The computation forms the logits  l[r, k] = leaky(u[r] + v[k]) + bias[r, k],
  takes each row's top (the maximum folded from −∞, taken once more against −∞), the shifted exponentials
  exp(l[r, k] − top[r]), divides each by its row's sum, and multiplies the resulting weights into the value rows.
  Over the extended reals the changes of shape move no data and the narrowing of format is the identity, so entry (r, o)
  of the result is  Σ_m weight(l[r, ·])_m · x[m, o]  with the weights of the specification.
-/
import proofs.«163712_j120259084551_1_alg».proof.Proof.Gen.KernelIdeal.Skeleton
import proofs.«163712_j120259084551_1_alg».proof.Proof.Spec
import proofs.«163712_j120259084551_1_alg».proof.Proof.LibColumns
import proofs.«163712_j120259084551_1_alg».proof.Proof.LibMatmulPlain
import proofs.«163712_j120259084551_1_alg».proof.Proof.LibRowMax
import proofs.«163712_j120259084551_1_alg».proof.Proof.LibRows
import Idealize.ShloMosaic.Lib.ValueLayout

noncomputable section

open scoped BigOperators

namespace Cert.KernelIdeal.Attn

open Cert.KernelIdeal Cert.KernelIdeal.Gen
open Idealize.ShloMosaic Idealize.ShloMosaic.ValueIdx

/-- The logits matrix of one block. -/
def logitMat (x0 : Vec Ideal S1x256x1 .f32) (x1 : Vec Ideal S1x1x2048 .f32) (x2 : Vec Ideal S1x256x2048 .f32) :
    FVec Ideal S256x2048 .f32 :=
  have v1 : FVec Ideal S256x1 .f32 := shapeCast S256x1 x0 shapeCasts_S1x256x1_S256x1
  have v3 : FVec Ideal S1x2048 .f32 := shapeCast S1x2048 x1 shapeCasts_S1x1x2048_S1x2048
  have v4 : FVec Ideal S256x2048 .f32 := broadcastTo S256x2048 v1 broadcasts_S256x1_S256x2048
  have v5 : FVec Ideal S256x2048 .f32 := broadcastTo S256x2048 v3 broadcasts_S1x2048_S256x2048
  have v6 : FVec Ideal S256x2048 .f32 := addf v4 v5
  have cst : Ideal .f32 := Scalar.ofBits .f32 0x3E4CCCCD#32
  have cst_5 : Ideal .f32 := Scalar.ofBits .f32 0x00000000#32
  have v7 : FVec Ideal S256x2048 .f32 := broadcast S256x2048 cst_5
  have v8 : IVec S256x2048 1 := cmpf .oge v6 v7
  have v9 : FVec Ideal S256x2048 .f32 := broadcast S256x2048 cst
  have v10 : FVec Ideal S256x2048 .f32 := mulf v9 v6
  have v11 : FVec Ideal S256x2048 .f32 := select v8 v6 v10
  have v13 : FVec Ideal S256x2048 .f32 := shapeCast S256x2048 x2 shapeCasts_S1x256x2048_S256x2048
  addf v11 v13

/-- The shifted exponentials of one block. -/
def expMat (l : FVec Ideal S256x2048 .f32) : FVec Ideal S256x2048 .f32 :=
  have v15 : FVec Ideal S256 .f32 := multiReduction .maximumf [1] S256 l 0xFF800000#32 reduces_S256x2048_S256 (.inl rfl) rfl
  have cst_10 : Ideal .f32 := Scalar.ofBits .f32 0xFF800000#32
  have v16 : FVec Ideal S256 .f32 := broadcast S256 cst_10
  have v17 : FVec Ideal S256 .f32 := maximumf v16 v15
  have v18 : FVec Ideal S256x1 .f32 := shapeCast S256x1 v17 shapeCasts_S256_S256x1
  have v19 : FVec Ideal S256x2048 .f32 := broadcastTo S256x2048 v18 broadcasts_S256x1_S256x2048
  have v20 : FVec Ideal S256x2048 .f32 := subf l v19
  exp v20

/-- The normalised weights of one block. -/
def weightMat (e : FVec Ideal S256x2048 .f32) : FVec Ideal S256x2048 .f32 :=
  have v22 : FVec Ideal S256 .f32 := multiReduction .add [1] S256 e 0x00000000#32 reduces_S256x2048_S256 (.inl rfl) rfl
  have v23 : FVec Ideal S256x1 .f32 := shapeCast S256x1 v22 shapeCasts_S256_S256x1
  have v24 : FVec Ideal S256x2048 .f32 := broadcastTo S256x2048 v23 broadcasts_S256x1_S256x2048
  divf e v24

theorem pay_eq (x0 : Vec Ideal S1x256x1 .f32) (x1 : Vec Ideal S1x1x2048 .f32) (x2 : Vec Ideal S1x256x2048 .f32)
    (x3 : Vec Ideal S1x2048x64 .f32) :
    k1_pay1 x0 x1 x2 x3 = shapeCast S1x256x64
      (matmul dot_S256x2048_S2048x64_S256x64_1_0_0_1_n_n none
        (truncf .bf16 (weightMat (expMat (logitMat x0 x1 x2))) bitsLt_bf16_f32)
        (truncf .bf16 (shapeCast S2048x64 x3 shapeCasts_S1x2048x64_S2048x64) bitsLt_bf16_f32)
        (constant S256x64 .f32 0x00000000#32)) shapeCasts_S256x64_S1x256x64 := rfl

/-- One row of logits of a block: entry k of row r is  leaky(u_r + v_k) + bias_{r,k}. -/
abbrev logitRow (x0 : Vec Ideal S1x256x1 .f32) (x1 : Vec Ideal S1x1x2048 .f32) (x2 : Vec Ideal S1x256x2048 .f32)
    (r : Fin 256) : Fin 2048 → EReal :=
  fun k => Cert.Gat.leaky (x0 (ix3 (0 : Fin 1) r (0 : Fin 1)) + x1 (ix3 (0 : Fin 1) (0 : Fin 1) k)) + x2 (ix3 (0 : Fin 1) r k)

/-- A vector of 256 row values, stood up as a column and repeated along the 2048 columns, reads at (r, m) the
    vector's entry r. -/
theorem col_of_vec_apply (v : FVec Ideal S256 .f32) (r : Fin 256) (m : Fin 2048) :
    broadcastTo S256x2048 (shapeCast S256x1 v shapeCasts_S256_S256x1) broadcasts_S256x1_S256x2048 (ix2 r m) = v (ix1 r) :=
  (Cert.Columns.broadcastTo_a1_ab_apply _ _ r m).trans (Cert.Columns.shapeCast_a_a1_apply v _ r (0 : Fin 1))

/-- The logits matrix at (r, m). -/
theorem logitMat_apply (x0 : Vec Ideal S1x256x1 .f32) (x1 : Vec Ideal S1x1x2048 .f32) (x2 : Vec Ideal S1x256x2048 .f32)
    (r : Fin 256) (m : Fin 2048) : logitMat x0 x1 x2 (ix2 r m) = logitRow x0 x1 x2 r m := by
  have e4 : broadcastTo S256x2048 (shapeCast S256x1 x0 shapeCasts_S1x256x1_S256x1) broadcasts_S256x1_S256x2048 (ix2 r m)
      = x0 (ix3 (0 : Fin 1) r (0 : Fin 1)) :=
    (Cert.Columns.broadcastTo_a1_ab_apply _ _ r m).trans (shapeCast_1ab_ab_apply x0 _ r (0 : Fin 1))
  have e5 : broadcastTo S256x2048 (shapeCast S1x2048 x1 shapeCasts_S1x1x2048_S1x2048) broadcasts_S1x2048_S256x2048 (ix2 r m)
      = x1 (ix3 (0 : Fin 1) (0 : Fin 1) m) :=
    (broadcastTo_1b_ab_apply _ _ r m).trans (shapeCast_1ab_ab_apply x1 _ (0 : Fin 1) m)
  have e13 : shapeCast S256x2048 x2 shapeCasts_S1x256x2048_S256x2048 (ix2 r m) = x2 (ix3 (0 : Fin 1) r m) :=
    shapeCast_1ab_ab_apply x2 _ r m
  show Cert.Gat.leaky
      (broadcastTo S256x2048 (shapeCast S256x1 x0 shapeCasts_S1x256x1_S256x1) broadcasts_S256x1_S256x2048 (ix2 r m)
        + broadcastTo S256x2048 (shapeCast S1x2048 x1 shapeCasts_S1x1x2048_S1x2048) broadcasts_S1x2048_S256x2048 (ix2 r m))
      + shapeCast S256x2048 x2 shapeCasts_S1x256x2048_S256x2048 (ix2 r m) = _
  rw [e4, e5, e13]

/-- The shifted exponential at (r, m): exp of the entry less the row's top. -/
theorem expMat_apply (l : FVec Ideal S256x2048 .f32) (r : Fin 256) (m : Fin 2048) :
    expMat l (ix2 r m) = Cert.Gat.expShift (fun k => l (ix2 r k)) m := by
  show Ideal.exp (l (ix2 r m)
      - broadcastTo S256x2048 (shapeCast S256x1
          (maximumf (broadcast S256 (Scalar.ofBits .f32 0xFF800000#32 : Ideal .f32))
            (multiReduction .maximumf [1] S256 l 0xFF800000#32 reduces_S256x2048_S256 (.inl rfl) rfl))
          shapeCasts_S256_S256x1) broadcasts_S256x1_S256x2048 (ix2 r m)) = _
  rw [col_of_vec_apply]
  exact congrArg (fun z => Ideal.exp (l (ix2 r m) - max (Ideal.ofBits .f32 0xFF800000#32) z))
    (Cert.LibRowMax.lane_max_last_apply l _ _ _ _ r)

/-- The weight at (r, m): the entry over its row's sum. -/
theorem weightMat_apply (e : FVec Ideal S256x2048 .f32) (r : Fin 256) (m : Fin 2048) :
    weightMat e (ix2 r m) = Ideal.div (e (ix2 r m)) (∑ k : Fin 2048, e (ix2 r k)) := by
  show Ideal.div (e (ix2 r m))
      (broadcastTo S256x2048 (shapeCast S256x1
          (multiReduction .add [1] S256 e 0x00000000#32 reduces_S256x2048_S256 (.inl rfl) rfl)
          shapeCasts_S256_S256x1) broadcasts_S256x1_S256x2048 (ix2 r m)) = _
  rw [col_of_vec_apply]
  exact congrArg (Ideal.div (e (ix2 r m))) (Cert.LibRows.lane_sum_last_apply e _ _ _ r)

/-- The weights of a block at (r, m) are the softmax weights of row r's logits. -/
theorem weights_apply (x0 : Vec Ideal S1x256x1 .f32) (x1 : Vec Ideal S1x1x2048 .f32) (x2 : Vec Ideal S1x256x2048 .f32)
    (r : Fin 256) (m : Fin 2048) :
    weightMat (expMat (logitMat x0 x1 x2)) (ix2 r m) = Cert.Gat.weight (logitRow x0 x1 x2 r) m := by
  have hrow : (fun k => logitMat x0 x1 x2 (ix2 r k)) = logitRow x0 x1 x2 r :=
    funext fun k => logitMat_apply x0 x1 x2 r k
  refine (weightMat_apply _ r m).trans ?_
  rw [expMat_apply, Finset.sum_congr rfl fun k _ => expMat_apply (logitMat x0 x1 x2) r k, hrow]
  rfl

/-- THE BODY'S RESULT AT (0, r, o): the weighted sum of the value rows. -/
theorem pay_apply (x0 : Vec Ideal S1x256x1 .f32) (x1 : Vec Ideal S1x1x2048 .f32) (x2 : Vec Ideal S1x256x2048 .f32)
    (x3 : Vec Ideal S1x2048x64 .f32) (r : Fin 256) (o : Fin 64) :
    k1_pay1 x0 x1 x2 x3 (ix3 (0 : Fin 1) r o)
      = ∑ m : Fin 2048, Cert.Gat.weight
          (fun k => Cert.Gat.leaky (x0 (ix3 (0 : Fin 1) r (0 : Fin 1)) + x1 (ix3 (0 : Fin 1) (0 : Fin 1) k)) + x2 (ix3 (0 : Fin 1) r k)) m
          * x3 (ix3 (0 : Fin 1) m o) := by
  rw [pay_eq]
  refine (shapeCast_ab_1ab_apply _ _ (0 : Fin 1) r o).trans ?_
  refine (Cert.LibMatmulPlain.matmul_plain_zero_apply _ rfl none _ _ r o).trans ?_
  refine Finset.sum_congr rfl fun m _ => ?_
  show weightMat (expMat (logitMat x0 x1 x2)) (ix2 r m) * shapeCast S2048x64 x3 shapeCasts_S1x2048x64_S2048x64 (ix2 m o) = _
  rw [weights_apply, shapeCast_1ab_ab_apply]

end Cert.KernelIdeal.Attn

end
-- ==== Proof.Attn.lean ====
/-
  The attention call's output array, from its blocks.

  The grid point with coordinates (b, q) loads rows q·256 … q·256 + 255 of batch b of the score column and of the bias,
  the whole score row and the whole value array of batch b, and writes back rows q·256 … q·256 + 255 of batch b of the
  output. Entry (0, r, o) of what it writes is the attention sum of row n = q·256 + r, the same function of the
  arrays the call was entered with as the attention stage at (b, n, o); the blocks tile the output, so after the last
  point the output array is the attention stage of those arrays.
-/
import proofs.«163712_j120259084551_1_alg».proof.Proof.Gen.KernelIdeal.Frame
import proofs.«163712_j120259084551_1_alg».proof.Proof.Spec
import proofs.«163712_j120259084551_1_alg».proof.Proof.AttnPayload
import Idealize.ShloMosaic.Lib.Pipeline.Value

set_option maxRecDepth 16384

noncomputable section

open scoped BigOperators

namespace Cert.KernelIdeal.Attn

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl

/-- The attention stage of the arrays the region finds: what the output array ends holding. -/
abbrev G (c : Dev nD) : S16x2048x64.Idx → Elt Ideal .f32 :=
  Cert.Gat.attnOut (V c main_v0_1) (V c main_v1) (V c main_arg1) (V c main_v0_0)

/-- The index maps over the grid: at the point with coordinates (b, q) the output block, the score-column block and
    the bias block sit at (b, q, 0), the score row and the value array of batch b at (b, 0, 0). -/
theorem idx_facts : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = win1_4.index t (1 : Fin 3) ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 15 ∧ win1_4.index t (1 : Fin 3) ≤ 7 ∧ win1_4.index t (2 : Fin 3) = 0 :=
  (by decide +kernel : ∀ t : Fin grid1.N, _)

/-- Every (batch, row tile) pair is some point's. -/
theorem idx_onto : ∀ (q0 : Fin 16) (q1 : Fin 8), ∃ t : Fin cfg1.N, win1_4.index t = ![q0.val, q1.val, 0] :=
  (by decide +kernel : ∀ (q0 : Fin 16) (q1 : Fin 8), ∃ t : Fin grid1.N, win1_4.index t = ![q0.val, q1.val, 0])

/-- WHAT POINT t WRITES BACK is block t of the attention stage of the arrays the region finds. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero zeros3]
  simp only [View.ld_unit_zero (S := S1x256x1) zeros3, View.ld_unit_zero (S := S1x1x2048) zeros3,
    View.ld_unit_zero (S := S1x256x2048) zeros3, View.ld_unit_zero (S := S1x2048x64) zeros3]
  obtain ⟨f00, f01, f02, f10, f11, f12, f20, f21, f22, f30, f31, f32, f40, f41, f42⟩ := idx_facts t
  funext y
  obtain ⟨z, r, o, rfl⟩ : ∃ (z : Fin 1) (r : Fin 256) (o : Fin 64), y = ix3 z r o := ⟨y 0, y 1, y 2, eq_ix3 y⟩
  obtain rfl : z = 0 := Subsingleton.elim _ _
  show k1_pay1 (iblk1 V c 0 t) (iblk1 V c 1 t) (iblk1 V c 2 t) (iblk1 V c 3 t) (ix3 (0 : Fin 1) r o)
    = G V c (((cfg1.win 4).blk t).view.emb (ix3 (0 : Fin 1) r o))
  refine (pay_apply (iblk1 V c 0 t) (iblk1 V c 1 t) (iblk1 V c 2 t) (iblk1 V c 3 t) r o).trans ?_
  have hb : win1_4.index t (0 : Fin 3) < 16 := by omega
  have hr : r.val < 256 := r.isLt
  have hn : win1_4.index t (1 : Fin 3) * 256 + r.val < 2048 := by omega
  have hemb : ((cfg1.win 4).blk t).view.emb (ix3 (0 : Fin 1) r o)
      = ix3 (⟨win1_4.index t (0 : Fin 3), hb⟩ : Fin 16) (⟨win1_4.index t (1 : Fin 3) * 256 + r.val, hn⟩ : Fin 2048) o := by
    funext a; apply Fin.ext
    match a with
    | ⟨0, _⟩ => show win1_4.index t (0 : Fin 3) * 1 + 1 * 0 = win1_4.index t (0 : Fin 3); omega
    | ⟨1, _⟩ => show win1_4.index t (1 : Fin 3) * 256 + 1 * r.val = win1_4.index t (1 : Fin 3) * 256 + r.val; omega
    | ⟨2, _⟩ => show win1_4.index t (2 : Fin 3) * 64 + 1 * o.val = o.val; omega
  rw [hemb]
  have e0 : iblk1 V c 0 t (ix3 (0 : Fin 1) r (0 : Fin 1))
      = V c main_v0_1 (ix3 (⟨win1_4.index t (0 : Fin 3), hb⟩ : Fin 16) (⟨win1_4.index t (1 : Fin 3) * 256 + r.val, hn⟩ : Fin 2048) (0 : Fin 1)) := by
    show V c main_v0_1 (((cfg1.win 0).blk t).view.emb (ix3 (0 : Fin 1) r (0 : Fin 1))) = _
    refine congrArg (V c main_v0_1) (funext fun a => Fin.ext ?_)
    match a with
    | ⟨0, _⟩ => show win1_0.index t (0 : Fin 3) * 1 + 1 * 0 = win1_4.index t (0 : Fin 3); omega
    | ⟨1, _⟩ => show win1_0.index t (1 : Fin 3) * 256 + 1 * r.val = win1_4.index t (1 : Fin 3) * 256 + r.val; omega
    | ⟨2, _⟩ => show win1_0.index t (2 : Fin 3) * 1 + 1 * 0 = 0; omega
  have e1 : ∀ k : Fin 2048, iblk1 V c 1 t (ix3 (0 : Fin 1) (0 : Fin 1) k)
      = V c main_v1 (ix3 (⟨win1_4.index t (0 : Fin 3), hb⟩ : Fin 16) (0 : Fin 1) k) := fun k => by
    show V c main_v1 (((cfg1.win 1).blk t).view.emb (ix3 (0 : Fin 1) (0 : Fin 1) k)) = _
    refine congrArg (V c main_v1) (funext fun a => Fin.ext ?_)
    match a with
    | ⟨0, _⟩ => show win1_1.index t (0 : Fin 3) * 1 + 1 * 0 = win1_4.index t (0 : Fin 3); omega
    | ⟨1, _⟩ => show win1_1.index t (1 : Fin 3) * 1 + 1 * 0 = 0; omega
    | ⟨2, _⟩ => show win1_1.index t (2 : Fin 3) * 2048 + 1 * k.val = k.val; omega
  have e2 : ∀ k : Fin 2048, iblk1 V c 2 t (ix3 (0 : Fin 1) r k)
      = V c main_arg1 (ix3 (⟨win1_4.index t (0 : Fin 3), hb⟩ : Fin 16) (⟨win1_4.index t (1 : Fin 3) * 256 + r.val, hn⟩ : Fin 2048) k) := fun k => by
    show V c main_arg1 (((cfg1.win 2).blk t).view.emb (ix3 (0 : Fin 1) r k)) = _
    refine congrArg (V c main_arg1) (funext fun a => Fin.ext ?_)
    match a with
    | ⟨0, _⟩ => show win1_2.index t (0 : Fin 3) * 1 + 1 * 0 = win1_4.index t (0 : Fin 3); omega
    | ⟨1, _⟩ => show win1_2.index t (1 : Fin 3) * 256 + 1 * r.val = win1_4.index t (1 : Fin 3) * 256 + r.val; omega
    | ⟨2, _⟩ => show win1_2.index t (2 : Fin 3) * 2048 + 1 * k.val = k.val; omega
  have e3 : ∀ k : Fin 2048, iblk1 V c 3 t (ix3 (0 : Fin 1) k o)
      = V c main_v0_0 (ix3 (⟨win1_4.index t (0 : Fin 3), hb⟩ : Fin 16) k o) := fun k => by
    show V c main_v0_0 (((cfg1.win 3).blk t).view.emb (ix3 (0 : Fin 1) k o)) = _
    refine congrArg (V c main_v0_0) (funext fun a => Fin.ext ?_)
    match a with
    | ⟨0, _⟩ => show win1_3.index t (0 : Fin 3) * 1 + 1 * 0 = win1_4.index t (0 : Fin 3); omega
    | ⟨1, _⟩ => show win1_3.index t (1 : Fin 3) * 2048 + 1 * k.val = k.val; omega
    | ⟨2, _⟩ => show win1_3.index t (2 : Fin 3) * 64 + 1 * o.val = o.val; omega
  rw [e0]
  simp only [e1, e2, e3]
  rfl

/-- An index of the output array is in point t's block iff each coordinate is in the block's range on its axis. -/
theorem mem_blk (t : Fin cfg1.N) (i : S16x2048x64.Idx) :
    i ∈ ((cfg1.win 4).blk t).view.set ↔ ∀ a : Fin 3, win1_4.index t a * S1x256x64.size a ≤ (i a).val ∧ (i a).val < win1_4.index t a * S1x256x64.size a + S1x256x64.size a := by
  show i ∈ ((View.whole main_v2).slice (win1_4.rect t)).set ↔ _
  rw [View.set_slice_whole, Rect.mem_set_unit]
  exact Iff.rfl

/-- Every index of the output array lies in the block of the point (batch, row / 256). -/
theorem cover (i : S16x2048x64.Idx) :
    ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 64 ≤ (i 2).val ∧ (i 2).val < win1_4.index t (2 : Fin 3) * 64 + 64; omega

/-- THE OUTPUT ARRAY after the attention call: the attention stage of the arrays the call was entered with. -/
theorem final_out (c : Dev nD) :
    (dat1 (F := Ideal) V c).arrAt 4 cfg1.N = Cert.Gat.attnOut (V c main_v0_1) (V c main_v1) (V c main_arg1) (V c main_v0_0) :=
  (dat1 V c).arrAt_eq_of_cover 4 (G V c) (fun t _ => flushed_eq V c t) cover

end Cert.KernelIdeal.Attn

end
-- ==== Proof.KValue.lean ====
/-
  The idealized kernel's result as one function of the five argument arrays.

  The result buffer at the return holds what the attention call's write-backs leave, which is the attention stage of
  that call's four input arrays; those are the projection call's outputs — the projected features, the first score
  column, and the second score column turned into a row by the transpose in between — and the bias as launched; and
  the projection call's outputs are the projections and scores of the arguments as launched. Composed, the result is
  the layer of the five arguments.
-/
import proofs.«163712_j120259084551_1_alg».proof.Proof.Spec
import proofs.«163712_j120259084551_1_alg».proof.Proof.KRun
import proofs.«163712_j120259084551_1_alg».proof.Proof.KFold
import proofs.«163712_j120259084551_1_alg».proof.Proof.Proj
import proofs.«163712_j120259084551_1_alg».proof.Proof.Attn
import Idealize.ShloMosaic.Lib.Pipeline.Value

noncomputable section

namespace Cert.KernelIdeal.KValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- A score column turned into a row: entry (b, 0, n) of the transpose is entry (b, n, 0) of the column. -/
theorem transpose_scoreArr (h : FVec Ideal ⟨3, ![16, 2048, 64]⟩ .f32) (W : FVec Ideal ⟨2, ![64, 64]⟩ .f32)
    (a : FVec Ideal ⟨2, ![64, 1]⟩ .f32) :
    transpose S16x1x2048 [0, 2, 1] (Cert.Gat.scoreArr h W a) transposes_S16x2048x1_S16x1x2048_0_2_1
      = Cert.Gat.scoreRowArr h W a := by
  funext j
  obtain ⟨b, u, n, rfl⟩ : ∃ (b : Fin 16) (u : Fin 1) (n : Fin 2048), j = ix3 b u n := ⟨j 0, j 1, j 2, eq_ix3 j⟩
  refine (transpose_apply _ (Cert.Gat.scoreArr h W a) transposes_S16x2048x1_S16x1x2048_0_2_1 (ix3 b u n) (ix3 b n u) fun a => ?_).trans ?_
  · match a with
    | ⟨0, _⟩ => rfl
    | ⟨1, _⟩ => rfl
    | ⟨2, _⟩ => rfl
  · rfl

/-- THE RESULT at the return is the layer of the launch memory's five argument arrays. -/
theorem result_layer (c : Dev nD) :
    W3 m ρ c (Proc.devRef .tc main_v2)
      = Cert.Gat.layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Cert.KernelIdeal.KFold.result_eq, Cert.KernelIdeal.Attn.final_out, Cert.KernelIdeal.KFold.entry_col,
    Cert.KernelIdeal.KFold.entry_row, Cert.KernelIdeal.KFold.entry_bias, Cert.KernelIdeal.KFold.entry_val,
    Cert.KernelIdeal.Proj.final_wh, Cert.KernelIdeal.Proj.final_u, Cert.KernelIdeal.Proj.final_v, transpose_scoreArr]
  rfl

/-- The idealized kernel's run: the result buffer ends at the layer of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v2)
        = Cert.Gat.layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1.trans (result_layer m ρ c), (h c).2⟩)
    (Cert.KernelIdeal.KRun.run_named m ρ)

end Cert.KernelIdeal.KValue

end
-- ==== Proof.RefTerm.lean ====
/-
  The reference's result as one composed term of the five argument arrays, stage by stage.

  The stages follow the reference's own order: the projection h·W, the two score columns, the second one turned into a
  row, the pairwise sums, the leaky rectifier (a comparison against zero selecting between the sum and 0.2 times it),
  the bias, each row's maximum (folded from −∞ and taken once more against −∞), the shifted exponentials, their row
  sums, the quotients, and the product of the weights with the projected features within each batch.
-/
import proofs.«163712_j120259084551_1_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The projected features h·W. -/
def proj (h : FVec Ideal S16x2048x64 .f32) (W : FVec Ideal S64x64 .f32) : FVec Ideal S16x2048x64 .f32 :=
  Host.dotGeneral (F := Ideal) dot_S16x2048x64_S64x64_S16x2048x64_2_0_01_1_n_n none h W

/-- A score column: the projected features against an attention vector. -/
def col (x : FVec Ideal S16x2048x64 .f32) (a : FVec Ideal S64x1 .f32) : FVec Ideal S16x2048x1 .f32 :=
  Host.dotGeneral (F := Ideal) dot_S16x2048x64_S64x1_S16x2048x1_2_0_01_1_n_n none x a

/-- The pairwise sums  u[b, n] + v[b, m]  of a score column and a score column turned into a row. -/
def pairSum (u v : FVec Ideal S16x2048x1 .f32) : FVec Ideal S16x2048x2048 .f32 :=
  addf (broadcastInDim S16x2048x2048 ![0, 1, 2] bcast_S16x2048x1_S16x2048x2048_0_1_2 u)
    (broadcastInDim S16x2048x2048 ![0, 1, 2] bcast_S16x1x2048_S16x2048x2048_0_1_2
      (transpose S16x1x2048 [0, 2, 1] v transposes_S16x2048x1_S16x1x2048_0_2_1))

/-- The leaky rectifier applied entrywise: the entry where it is at least zero, 0.2 times it elsewhere. -/
def rect (e : FVec Ideal S16x2048x2048 .f32) : FVec Ideal S16x2048x2048 .f32 :=
  select (cmpf .oge e (broadcastInDim S16x2048x2048 ![] bcast_S_S16x2048x2048 (constant (F := Ideal) S_ .f32 0x00000000#32))) e
    (mulf (broadcastInDim S16x2048x2048 ![] bcast_S_S16x2048x2048 (id (constant (F := Ideal) S_ .f32 0x3E4CCCCD#32))) e)

/-- Each row's top: the maximum folded from −∞, taken once more against −∞. -/
def top (l : FVec Ideal S16x2048x2048 .f32) : FVec Ideal S16x2048 .f32 :=
  maximumf (broadcastInDim S16x2048 ![] bcast_S_S16x2048 (constant (F := Ideal) S_ .f32 0xFF800000#32))
    (Host.reduce FloatOps.maximumf l (constant (F := Ideal) S_ .f32 0xFF800000#32) reducesTo_S16x2048x2048_S16x2048_d2 h_S_)

/-- A per-row value spread over the row's 2048 entries. -/
def spread (r : FVec Ideal S16x2048 .f32) : FVec Ideal S16x2048x2048 .f32 :=
  broadcastInDim S16x2048x2048 ![0, 1, 2] bcast_S16x2048x1_S16x2048x2048_0_1_2
    (broadcastInDim S16x2048x1 ![0, 1] bcast_S16x2048_S16x2048x1_0_1 r)

/-- The shifted exponentials  exp(l − top). -/
def expo (l : FVec Ideal S16x2048x2048 .f32) : FVec Ideal S16x2048x2048 .f32 :=
  Host.exp (subf l (spread (top l)))

/-- The softmax weights: the shifted exponentials over their row sums. -/
def weights (l : FVec Ideal S16x2048x2048 .f32) : FVec Ideal S16x2048x2048 .f32 :=
  Host.divf (expo l)
    (spread (Host.reduceAdd (expo l) (constant (F := Ideal) S_ .f32 0x00000000#32) reducesTo_S16x2048x2048_S16x2048_d2 h_S_))

/-- The reference's result from the five argument arrays. -/
def refTerm (h : FVec Ideal S16x2048x64 .f32) (bias : FVec Ideal S16x2048x2048 .f32) (W : FVec Ideal S64x64 .f32)
    (a1 a2 : FVec Ideal S64x1 .f32) : FVec Ideal S16x2048x64 .f32 :=
  Host.dotGeneral (F := Ideal) dot_S16x2048x2048_S16x2048x64_S16x2048x64_2_1_1_2_0_0 none
    (weights (addf (rect (pairSum (col (proj h W) a1) (col (proj h W) a2))) bias)) (proj h W)

end Cert.ReferenceIdeal.RefValue

end
-- ==== Proof.RefRun.lean ====
/-
  The reference's run, operation by operation.

  The reference computes the layer in thirty-one steps: the projection h·W, the two score columns, the second column
  turned into a row, both spread to the square of pairs and added, the slope 0.2, then the rectifier's own seven steps
  (zero, zero spread over the square, the comparison of the sums against it, the slope converted to its own type and
  spread, the product of the slope with the sums, the selection between the sums and the products), the bias added,
  −∞ and the row maxima folded from it, −∞ again spread over the rows and the maximum taken once more, that top spread
  back over each row, the differences, their exponentials, zero and the row sums folded from it, the sums spread back,
  the quotients, and the product of the quotients with the projected features within each batch.

  The steps are listed in order, the rectifier's at the place it is applied and over the values that application names.
  Run in order from the initial contents, each step replaces the one value it defines by its function of the values it
  reads and leaves every other value alone; so the last value is the composition of the steps' functions at the five
  argument arrays, and the argument arrays are what they were.
-/
import proofs.«163712_j120259084551_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirty-one steps, in order: eight before the rectifier, the rectifier's seven, sixteen after. -/
abbrev ops : List (HloOp τ sig (Elt F)) :=
  [ binary main_arg0 main_arg2 main_v0 ((fun l r => Host.dotGeneral dot_S16x2048x64_S64x64_S16x2048x64_2_0_01_1_n_n none l r) : (⟨S16x2048x64, .f32⟩ : BufTy).Contents (Elt F) → (⟨S64x64, .f32⟩ : BufTy).Contents (Elt F) → (⟨S16x2048x64, .f32⟩ : BufTy).Contents (Elt F)),
    binary main_v0 main_arg3 main_v1 ((fun l r => Host.dotGeneral dot_S16x2048x64_S64x1_S16x2048x1_2_0_01_1_n_n none l r) : (⟨S16x2048x64, .f32⟩ : BufTy).Contents (Elt F) → (⟨S64x1, .f32⟩ : BufTy).Contents (Elt F) → (⟨S16x2048x1, .f32⟩ : BufTy).Contents (Elt F)),
    binary main_v0 main_arg4 main_v2 ((fun l r => Host.dotGeneral dot_S16x2048x64_S64x1_S16x2048x1_2_0_01_1_n_n none l r) : (⟨S16x2048x64, .f32⟩ : BufTy).Contents (Elt F) → (⟨S64x1, .f32⟩ : BufTy).Contents (Elt F) → (⟨S16x2048x1, .f32⟩ : BufTy).Contents (Elt F)),
    unary main_v2 main_v3 ((transpose S16x1x2048 [0, 2, 1] · transposes_S16x2048x1_S16x1x2048_0_2_1) : (⟨S16x2048x1, .f32⟩ : BufTy).Contents (Elt F) → (⟨S16x1x2048, .f32⟩ : BufTy).Contents (Elt F)),
    unary main_v1 main_v4 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    unary main_v3 main_v5 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v4 main_v5 main_v6 (addf : (⟨S16x2048x2048, .f32⟩ : BufTy).Contents (Elt F) → (⟨S16x2048x2048, .f32⟩ : BufTy).Contents (Elt F) → (⟨S16x2048x2048, .f32⟩ : BufTy).Contents (Elt F)),
    nullary main_cst (constant S_ .f32 0x3E4CCCCD#32),
    TRef.nullary main_call0.cst (constant S_ .f32 0x00000000#32),
    TRef.unary main_call0.cst main_call0.v0 (broadcastInDim S16x2048x2048 ![] bcast_S_S16x2048x2048),
    TRef.binary (.of main_v6) main_call0.v0 main_call0.v1 (cmpf .oge),
    TRef.unary (.of main_cst) main_call0.v2 id,
    TRef.unary main_call0.v2 main_call0.v3 (broadcastInDim S16x2048x2048 ![] bcast_S_S16x2048x2048),
    TRef.binary main_call0.v3 (.of main_v6) main_call0.v4 mulf,
    TRef.ternary main_call0.v1 (.of main_v6) main_call0.v4 main_call0.call0.v0 select,
    binary main_v7 main_arg1 main_v8 (addf : (⟨S16x2048x2048, .f32⟩ : BufTy).Contents (Elt F) → (⟨S16x2048x2048, .f32⟩ : BufTy).Contents (Elt F) → (⟨S16x2048x2048, .f32⟩ : BufTy).Contents (Elt F)),
    nullary main_cst_0 (constant S_ .f32 0xFF800000#32),
    binary main_v8 main_cst_0 main_v9 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_1 (constant S_ .f32 0xFF800000#32),
    unary main_cst_1 main_v10 (broadcastInDim S16x2048 ![] bcast_S_S16x2048 : (⟨S_, .f32⟩ : BufTy).Contents (Elt F) → (⟨S16x2048, .f32⟩ : BufTy).Contents (Elt F)),
    binary main_v10 main_v9 main_v11 (maximumf : (⟨S16x2048, .f32⟩ : BufTy).Contents (Elt F) → (⟨S16x2048, .f32⟩ : BufTy).Contents (Elt F) → (⟨S16x2048, .f32⟩ : BufTy).Contents (Elt F)),
    unary main_v11 main_v12 (broadcastInDim S16x2048x1 ![0, 1] bcast_S16x2048_S16x2048x1_0_1 : (⟨S16x2048, .f32⟩ : BufTy).Contents (Elt F) → (⟨S16x2048x1, .f32⟩ : BufTy).Contents (Elt F)),
    unary main_v12 main_v13 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v8 main_v13 main_v14 (subf : (⟨S16x2048x2048, .f32⟩ : BufTy).Contents (Elt F) → (⟨S16x2048x2048, .f32⟩ : BufTy).Contents (Elt F) → (⟨S16x2048x2048, .f32⟩ : BufTy).Contents (Elt F)),
    unary main_v14 main_v15 (Host.exp : (⟨S16x2048x2048, .f32⟩ : BufTy).Contents (Elt F) → (⟨S16x2048x2048, .f32⟩ : BufTy).Contents (Elt F)),
    nullary main_cst_2 (constant S_ .f32 0x00000000#32),
    binary main_v15 main_cst_2 main_v16 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v16 main_v17 (broadcastInDim S16x2048x1 ![0, 1] bcast_S16x2048_S16x2048x1_0_1 : (⟨S16x2048, .f32⟩ : BufTy).Contents (Elt F) → (⟨S16x2048x1, .f32⟩ : BufTy).Contents (Elt F)),
    unary main_v17 main_v18 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v15 main_v18 main_v19 (Host.divf : (⟨S16x2048x2048, .f32⟩ : BufTy).Contents (Elt F) → (⟨S16x2048x2048, .f32⟩ : BufTy).Contents (Elt F) → (⟨S16x2048x2048, .f32⟩ : BufTy).Contents (Elt F)),
    binary main_v19 main_v0 main_v20 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)) ]

-- thirty-one binds re-associated, the rectifier's and the selection's bodies opened at their applications
set_option maxRecDepth 1024 in
/-- The reference is that straight line: with the rectifier's body and the selection's opened where they are applied,
    both sides are one chain of steps once the sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every step reads and writes values of the reference only. -/
theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub ..⟩

/-- Every value after the thirty-one steps, as their fold over the initial contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the steps leave

Each step's result at the value it defines is its function of the values it reads, and at any other value what was
there; read from the last step back to the arguments this is the composed term for the result, and the argument arrays
themselves, which no step defines. -/

-- the composed term is deep: the projected features occur three times in it, the logits four
set_option maxHeartbeats 1000000 in
set_option maxRecDepth 8192 in
/-- The result after the steps is the composed term of the five argument arrays: the projection, the two score columns,
    the pairwise sums, the rectifier, the bias, the row tops, the shifted exponentials, their row sums, the quotients,
    and the product with the projected features, each stage the step's own function. -/
theorem out_eq (V : Valuation τ sig (Elt Ideal)) :
    after ops V (main_v20 : DevRef τ sig) = Cert.ReferenceIdeal.RefValue.refTerm (V (main_arg0 : DevRef τ sig)) (V (main_arg1 : DevRef τ sig)) (V (main_arg2 : DevRef τ sig)) (V (main_arg3 : DevRef τ sig)) (V (main_arg4 : DevRef τ sig)) := by
  after_results_simp
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

theorem arg4_eq (V : Valuation τ sig (Elt Ideal)) :
    after ops V (main_arg4 : DevRef τ sig) = V (main_arg4 : DevRef τ sig) := by
  after_results_simp

/-- On the one device, over the extended reals, from any memory with zero counters: every weakly fair execution of the
    reference terminates with its result at the composed term of the five argument arrays, and the argument arrays
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = Cert.ReferenceIdeal.RefValue.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c main_v20).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_fold m ρ)

end Cert.ReferenceIdeal.RefRun

end
-- ==== Proof.LibDotRank3.lean ====
/-
  Two contractions of a three-axis array read at an index, over the extended reals.

  * [B, N, K] against [K, O], contracting the left operand's last axis with the right operand's first, no batch axis:
    the entry (b, n, o) of the result is  Σ_k lhs(b, n, k) · rhs(k, o).
  * [B, N, M] against [B, M, O], contracting the left operand's last axis with the right operand's middle axis, the
    leading axis of both a batch axis: the entry (b, n, o) of the result is  Σ_m lhs(b, n, m) · rhs(b, m, o).
  In both the contraction index has one coordinate; the left index keeps the output's batch and row coordinates and takes
  the contraction coordinate last, the right index takes the contraction coordinate on its contracted axis and keeps the
  output's column (and batch) coordinate. Generic in the extents and in the operands' formats; the dimension numbers are
  the record with the six lists written out, over any proof that they are well formed.
-/
import Idealize.ShloMosaic.PureOps.Ideal.Laws
import Idealize.ShloMosaic.Lib.ValueIdx

noncomputable section

open scoped BigOperators

namespace Cert.LibDotRank3

open Idealize.ShloMosaic Idealize.ShloMosaic.ValueIdx

variable {B N K O : Nat}

/-- The dimension numbers of [B, N, K] × [K, O] → [B, N, O]. -/
abbrev dimsPlain3 (wf : DotDims.WF ⟨3, ![B, N, K]⟩ ⟨2, ![K, O]⟩ ⟨3, ![B, N, O]⟩ [2] [0] [0, 1] [1] [] []) :
    DotDims ⟨3, ![B, N, K]⟩ ⟨2, ![K, O]⟩ ⟨3, ![B, N, O]⟩ :=
  { lhsContracting := [2], rhsContracting := [0], lhsNonContracting := [0, 1], rhsNonContracting := [1],
    lhsBatch := [], rhsBatch := [], wf := wf }

/-- The dimension numbers of the batched [B, N, K] × [B, K, O] → [B, N, O]. -/
abbrev dimsBatched3 (wf : DotDims.WF ⟨3, ![B, N, K]⟩ ⟨3, ![B, K, O]⟩ ⟨3, ![B, N, O]⟩ [2] [1] [1] [2] [0] [0]) :
    DotDims ⟨3, ![B, N, K]⟩ ⟨3, ![B, K, O]⟩ ⟨3, ![B, N, O]⟩ :=
  { lhsContracting := [2], rhsContracting := [1], lhsNonContracting := [1], rhsNonContracting := [2],
    lhsBatch := [0], rhsBatch := [0], wf := wf }

/-- [B, N, K] × [K, O] at (b, n, o):  Σ_k lhs(b, n, k) · rhs(k, o). -/
theorem dotPlain3_apply {φ₁ φ₂ : FTy} (wf : DotDims.WF ⟨3, ![B, N, K]⟩ ⟨2, ![K, O]⟩ ⟨3, ![B, N, O]⟩ [2] [0] [0, 1] [1] [] [])
    (prec : Option ContractPrecision) (sched : HostSchedule)
    (lhs : FVec Ideal ⟨3, ![B, N, K]⟩ φ₁) (rhs : FVec Ideal ⟨2, ![K, O]⟩ φ₂) (b : Fin B) (n : Fin N) (o : Fin O) :
    FloatOps.dotGeneral (dimsPlain3 wf) prec sched lhs rhs (ix3 b n o) = ∑ k : Fin K, lhs (ix3 b n k) * rhs (ix2 k o) := by
  rw [Ideal.dotGeneral_apply, ← Equiv.sum_comp (contrEquiv1 (dimsPlain3 wf) K rfl rfl).symm]
  refine Finset.sum_congr rfl fun k _ => ?_
  have hk := contrEquiv1_symm_val (dimsPlain3 wf) K rfl rfl k
  have el : (dimsPlain3 wf).lhsIdx (ix3 b n o) ((contrEquiv1 (dimsPlain3 wf) K rfl rfl).symm k) = ix3 b n k :=
    funext fun a => Fin.ext (by
      match a with
      | ⟨0, _⟩ => rfl
      | ⟨1, _⟩ => rfl
      | ⟨2, _⟩ => exact ((dimsPlain3 wf).lhsIdx_val_of_single rfl _ _).trans hk)
  have er : (dimsPlain3 wf).rhsIdx (ix3 b n o) ((contrEquiv1 (dimsPlain3 wf) K rfl rfl).symm k) = ix2 k o :=
    funext fun a => Fin.ext (by
      match a with
      | ⟨0, _⟩ => exact ((dimsPlain3 wf).rhsIdx_val_of_single rfl _ _).trans hk
      | ⟨1, _⟩ => rfl)
  rw [el, er]

/-- The batched [B, N, K] × [B, K, O] at (b, n, o):  Σ_k lhs(b, n, k) · rhs(b, k, o). -/
theorem dotBatched3_apply {φ₁ φ₂ : FTy}
    (wf : DotDims.WF ⟨3, ![B, N, K]⟩ ⟨3, ![B, K, O]⟩ ⟨3, ![B, N, O]⟩ [2] [1] [1] [2] [0] [0])
    (prec : Option ContractPrecision) (sched : HostSchedule)
    (lhs : FVec Ideal ⟨3, ![B, N, K]⟩ φ₁) (rhs : FVec Ideal ⟨3, ![B, K, O]⟩ φ₂) (b : Fin B) (n : Fin N) (o : Fin O) :
    FloatOps.dotGeneral (dimsBatched3 wf) prec sched lhs rhs (ix3 b n o)
      = ∑ k : Fin K, lhs (ix3 b n k) * rhs (ix3 b k o) := by
  rw [Ideal.dotGeneral_apply, ← Equiv.sum_comp (contrEquiv1 (dimsBatched3 wf) K rfl rfl).symm]
  refine Finset.sum_congr rfl fun k _ => ?_
  have hk := contrEquiv1_symm_val (dimsBatched3 wf) K rfl rfl k
  have el : (dimsBatched3 wf).lhsIdx (ix3 b n o) ((contrEquiv1 (dimsBatched3 wf) K rfl rfl).symm k) = ix3 b n k :=
    funext fun a => Fin.ext (by
      match a with
      | ⟨0, _⟩ => rfl
      | ⟨1, _⟩ => rfl
      | ⟨2, _⟩ => exact ((dimsBatched3 wf).lhsIdx_val_of_single rfl _ _).trans hk)
  have er : (dimsBatched3 wf).rhsIdx (ix3 b n o) ((contrEquiv1 (dimsBatched3 wf) K rfl rfl).symm k) = ix3 b k o :=
    funext fun a => Fin.ext (by
      match a with
      | ⟨0, _⟩ => rfl
      | ⟨1, _⟩ => exact ((dimsBatched3 wf).rhsIdx_val_of_single rfl _ _).trans hk
      | ⟨2, _⟩ => rfl)
  rw [el, er]

end Cert.LibDotRank3

end
-- ==== Proof.RefReadStages.lean ====
/-
  The stages of the reference's result, each read at an index written by its coordinates.

  For arbitrary operand arrays: the projection and the score column are sums over the contracted axis; the pairwise sum
  of a column and a column turned into a row is, at (b, n, m), the first at (b, n, 0) plus the second at (b, m, 0); the
  rectifier acts entrywise; a row's top is the fold of the maximum from −∞ over the row, taken once more against −∞;
  a per-row value spread over the row is that value at every entry; the shifted exponentials, the row sums and the
  quotients are the shifted softmax of the row.
-/
import proofs.«163712_j120259084551_1_alg».proof.Proof.RefTerm
import proofs.«163712_j120259084551_1_alg».proof.Proof.Spec
import proofs.«163712_j120259084551_1_alg».proof.Proof.LibDotRank3
import Idealize.ShloMosaic.Lib.Pipeline.Value

noncomputable section

open scoped BigOperators

namespace Cert.ReferenceIdeal.RefRead

open Cert.ReferenceIdeal Cert.ReferenceIdeal.Gen Cert.ReferenceIdeal.RefValue Cert.LibDotRank3 Idealize.ShloMosaic Idealize.ShloMosaic.ValueIdx

/-- The projection at (b, n, o):  Σ_f x(b, n, f) · W(f, o). -/
theorem proj_apply (x : FVec Ideal S16x2048x64 .f32) (W : FVec Ideal S64x64 .f32) (b : Fin 16) (n : Fin 2048) (o : Fin 64) :
    proj x W (ix3 b n o) = ∑ f : Fin 64, x (ix3 b n f) * W (ix2 f o) :=
  dotPlain3_apply dot_S16x2048x64_S64x64_S16x2048x64_2_0_01_1_n_n_wf none .single x W b n o

/-- A score column at (b, n, u):  Σ_o x(b, n, o) · a(o, u). -/
theorem col_apply (x : FVec Ideal S16x2048x64 .f32) (a : FVec Ideal S64x1 .f32) (b : Fin 16) (n : Fin 2048) (u : Fin 1) :
    col x a (ix3 b n u) = ∑ o : Fin 64, x (ix3 b n o) * a (ix2 o u) :=
  dotPlain3_apply dot_S16x2048x64_S64x1_S16x2048x1_2_0_01_1_n_n_wf none .single x a b n u

/-- The pairwise sum at (b, n, m): the first column at (b, n) plus the second column at (b, m). -/
theorem pairSum_apply (u v : FVec Ideal S16x2048x1 .f32) (b : Fin 16) (n m : Fin 2048) :
    pairSum u v (ix3 b n m) = u (ix3 b n (0 : Fin 1)) + v (ix3 b m (0 : Fin 1)) := by
  have e1 : broadcastInDim S16x2048x2048 ![0, 1, 2] bcast_S16x2048x1_S16x2048x2048_0_1_2 u (ix3 b n m)
      = u (ix3 b n (0 : Fin 1)) :=
    broadcastInDim_apply _ _ u (ix3 b n m) (ix3 b n (0 : Fin 1)) (fun a => match a with
      | ⟨0, _⟩ => rfl
      | ⟨1, _⟩ => rfl
      | ⟨2, _⟩ => rfl)
  have e2 : broadcastInDim S16x2048x2048 ![0, 1, 2] bcast_S16x1x2048_S16x2048x2048_0_1_2
        (transpose S16x1x2048 [0, 2, 1] v transposes_S16x2048x1_S16x1x2048_0_2_1) (ix3 b n m)
      = v (ix3 b m (0 : Fin 1)) := by
    refine (broadcastInDim_apply _ _ _ (ix3 b n m) (ix3 b (0 : Fin 1) m) (fun a => match a with
      | ⟨0, _⟩ => rfl
      | ⟨1, _⟩ => rfl
      | ⟨2, _⟩ => rfl)).trans ?_
    exact transpose_apply _ v _ (ix3 b (0 : Fin 1) m) (ix3 b m (0 : Fin 1)) (fun a => match a with
      | ⟨0, _⟩ => rfl
      | ⟨1, _⟩ => rfl
      | ⟨2, _⟩ => rfl)
  show broadcastInDim S16x2048x2048 ![0, 1, 2] bcast_S16x2048x1_S16x2048x2048_0_1_2 u (ix3 b n m)
      + broadcastInDim S16x2048x2048 ![0, 1, 2] bcast_S16x1x2048_S16x2048x2048_0_1_2
        (transpose S16x1x2048 [0, 2, 1] v transposes_S16x2048x1_S16x1x2048_0_2_1) (ix3 b n m) = _
  rw [e1, e2]

/-- The rectifier acts entrywise. -/
theorem rect_apply (e : FVec Ideal S16x2048x2048 .f32) (i : S16x2048x2048.Idx) :
    rect e i = Cert.Gat.leaky (e i) := rfl

/-- The index of row (b, n) with the column m put back is (b, n, m). -/
theorem lift_row (h : S16x2048x2048.Reduces [2] S16x2048) (b : Fin 16) (n m : Fin 2048) :
    h.lift (ix2 b n) m = ix3 b n m :=
  funext fun ax => Fin.ext (by
    match ax with
    | ⟨0, _⟩ => rfl
    | ⟨1, _⟩ => rfl
    | ⟨2, _⟩ => rfl)

/-- A row's top at (b, n). -/
theorem top_apply (l : FVec Ideal S16x2048x2048 .f32) (b : Fin 16) (n : Fin 2048) :
    top l (ix2 b n) = Cert.Gat.rowTop (fun m => l (ix3 b n m)) := by
  have hr : S16x2048x2048.Reduces [2] S16x2048 := by decide
  have e : Host.reduce (FloatOps.maximumf (F := Ideal) (φ := .f32)) l (constant (F := Ideal) S_ .f32 0xFF800000#32)
        reducesTo_S16x2048x2048_S16x2048_d2 h_S_ (ix2 b n)
      = (Finset.univ : Finset (Fin 2048)).fold max (Ideal.ofBits .f32 0xFF800000#32) (fun m => l (ix3 b n m)) := by
    refine (Host.reduce_eq_fold_single (FloatOps.maximumf (F := Ideal) (φ := .f32)) l _
      reducesTo_S16x2048x2048_S16x2048_d2 hr h_S_ (ix2 b n)).trans ?_
    exact Finset.fold_congr fun m _ => congrArg l (lift_row hr b n m)
  unfold top
  refine (maximumf_apply _ _ _).trans ?_
  rw [e]
  rfl

/-- A per-row value spread over the row. -/
theorem spread_apply (r : FVec Ideal S16x2048 .f32) (b : Fin 16) (n m : Fin 2048) :
    spread r (ix3 b n m) = r (ix2 b n) := by
  refine (broadcastInDim_apply _ _ _ (ix3 b n m) (ix3 b n (0 : Fin 1)) (fun a => match a with
    | ⟨0, _⟩ => rfl
    | ⟨1, _⟩ => rfl
    | ⟨2, _⟩ => rfl)).trans ?_
  exact broadcastInDim_apply _ _ r (ix3 b n (0 : Fin 1)) (ix2 b n) (fun a => match a with
    | ⟨0, _⟩ => rfl
    | ⟨1, _⟩ => rfl)

/-- The shifted exponential at (b, n, m). -/
theorem expo_apply (l : FVec Ideal S16x2048x2048 .f32) (b : Fin 16) (n m : Fin 2048) :
    expo l (ix3 b n m) = Cert.Gat.expShift (fun k => l (ix3 b n k)) m := by
  show Ideal.exp (l (ix3 b n m) - spread (top l) (ix3 b n m)) = _
  rw [spread_apply, top_apply]
  rfl

/-- The host's sum over the last axis from the zero word, at (b, n). -/
theorem rowSum_apply (x : FVec Ideal S16x2048x2048 .f32) (b : Fin 16) (n : Fin 2048) :
    Host.reduceAdd x (constant (F := Ideal) S_ .f32 0x00000000#32) reducesTo_S16x2048x2048_S16x2048_d2 h_S_ (ix2 b n)
      = ∑ m : Fin 2048, x (ix3 b n m) := by
  have hr : S16x2048x2048.Reduces [2] S16x2048 := by decide
  show Ideal.hostReduceAdd reducesTo_S16x2048x2048_S16x2048_d2 x (Ideal.ofBits .f32 0x00000000#32) (ix2 b n) = _
  rw [Ideal.hostReduceAdd_single reducesTo_S16x2048x2048_S16x2048_d2 hr, Ideal.ofBits_zero_f32, zero_add]
  exact Finset.sum_congr rfl fun m _ => congrArg x (lift_row hr b n m)

/-- The softmax weight at (b, n, m). -/
theorem weights_apply (l : FVec Ideal S16x2048x2048 .f32) (b : Fin 16) (n m : Fin 2048) :
    weights l (ix3 b n m) = Cert.Gat.weight (fun k => l (ix3 b n k)) m := by
  show Ideal.div (expo l (ix3 b n m))
      (spread (Host.reduceAdd (expo l) (constant (F := Ideal) S_ .f32 0x00000000#32)
        reducesTo_S16x2048x2048_S16x2048_d2 h_S_) (ix3 b n m)) = _
  rw [spread_apply, rowSum_apply, expo_apply]
  unfold Cert.Gat.weight
  exact congrArg (Ideal.div _) (Finset.sum_congr rfl fun k _ => expo_apply l b n k)

end Cert.ReferenceIdeal.RefRead

end
-- ==== Proof.RefRead.lean ====
/-
  The reference's result is the specification's layer.

  The projection is the array of projected features and each score column the array of scores, entry by entry; the
  logits of a row are then the specification's logits, the weights its shifted softmax, and the last product within each
  batch the sum  Σ_m weight(b, n, m) · Wh(b, m, o).
-/
import proofs.«163712_j120259084551_1_alg».proof.Proof.RefReadStages

noncomputable section

open scoped BigOperators

namespace Cert.ReferenceIdeal.RefRead

open Cert.ReferenceIdeal Cert.ReferenceIdeal.Gen Cert.ReferenceIdeal.RefValue Cert.LibDotRank3 Idealize.ShloMosaic Idealize.ShloMosaic.ValueIdx

/-- The projection is the array of projected features. -/
theorem proj_eq (h : FVec Ideal S16x2048x64 .f32) (W : FVec Ideal S64x64 .f32) : proj h W = Cert.Gat.whArr h W := by
  funext j
  obtain ⟨b, n, o, rfl⟩ : ∃ (b : Fin 16) (n : Fin 2048) (o : Fin 64), j = ix3 b n o := ⟨j 0, j 1, j 2, eq_ix3 j⟩
  exact proj_apply h W b n o

/-- A score column of the projected features is the array of scores. -/
theorem col_eq (h : FVec Ideal S16x2048x64 .f32) (W : FVec Ideal S64x64 .f32) (a : FVec Ideal S64x1 .f32) :
    col (Cert.Gat.whArr h W) a = Cert.Gat.scoreArr h W a := by
  funext j
  obtain ⟨b, n, u, rfl⟩ : ∃ (b : Fin 16) (n : Fin 2048) (u : Fin 1), j = ix3 b n u := ⟨j 0, j 1, j 2, eq_ix3 j⟩
  obtain rfl : u = 0 := Subsingleton.elim _ _
  exact col_apply _ a b n 0

/-- The logits at (b, n, m): the rectified pairwise sum of the two score columns plus the bias. -/
theorem logits_apply (h : FVec Ideal S16x2048x64 .f32) (bias : FVec Ideal S16x2048x2048 .f32) (W : FVec Ideal S64x64 .f32)
    (a1 a2 : FVec Ideal S64x1 .f32) (b : Fin 16) (n m : Fin 2048) :
    addf (rect (pairSum (col (Cert.Gat.whArr h W) a1) (col (Cert.Gat.whArr h W) a2))) bias (ix3 b n m)
      = Cert.Gat.logit (Cert.Gat.scoreArr h W a1) (Cert.Gat.scoreRowArr h W a2) bias b n m := by
  show rect (pairSum (col (Cert.Gat.whArr h W) a1) (col (Cert.Gat.whArr h W) a2)) (ix3 b n m) + bias (ix3 b n m) = _
  rw [rect_apply, pairSum_apply, col_eq, col_eq]
  rfl

/-- THE REFERENCE'S VALUE: the composed result of the five argument arrays is the specification's layer. -/
theorem refTerm_eq (h : FVec Ideal S16x2048x64 .f32) (bias : FVec Ideal S16x2048x2048 .f32) (W : FVec Ideal S64x64 .f32)
    (a1 a2 : FVec Ideal S64x1 .f32) :
    Cert.ReferenceIdeal.RefValue.refTerm h bias W a1 a2 = Cert.Gat.layer h bias W a1 a2 := by
  funext j
  obtain ⟨b, n, o, rfl⟩ : ∃ (b : Fin 16) (n : Fin 2048) (o : Fin 64), j = ix3 b n o := ⟨j 0, j 1, j 2, eq_ix3 j⟩
  have key : ∀ x : FVec Ideal S16x2048x64 .f32, x = Cert.Gat.whArr h W →
      Host.dotGeneral (F := Ideal) dot_S16x2048x2048_S16x2048x64_S16x2048x64_2_1_1_2_0_0 none
        (weights (addf (rect (pairSum (col x a1) (col x a2))) bias)) x (ix3 b n o)
        = Cert.Gat.layer h bias W a1 a2 (ix3 b n o) := by
    rintro x rfl
    refine (dotBatched3_apply dot_S16x2048x2048_S16x2048x64_S16x2048x64_2_1_1_2_0_0_wf none .single _ _ b n o).trans ?_
    show _ = ∑ m : Fin 2048, Cert.Gat.weight (Cert.Gat.logit (Cert.Gat.scoreArr h W a1) (Cert.Gat.scoreRowArr h W a2) bias b n) m
        * Cert.Gat.whArr h W (ix3 b m o)
    refine Finset.sum_congr rfl fun m _ => ?_
    refine congrArg (· * Cert.Gat.whArr h W (ix3 b m o)) ?_
    rw [weights_apply]
    exact congrArg (fun l => Cert.Gat.weight l m) (funext fun k => logits_apply h bias W a1 a2 b n k)
  exact key (proj h W) (proj_eq h W)

end Cert.ReferenceIdeal.RefRead

end
-- ==== Proof.lean ====
/-
  Dense additive graph attention: a two-call kernel against its array-level reference, over the extended reals.

  The kernel's first call computes, block of 512 rows by block, the projected features Wh = h·W and the two score
  columns Wh·a1 and Wh·a2; one transpose turns the second column into a row; the second call computes, block of 256
  rows by block, the logits leaky(u_n + v_m) + bias, each row's softmax weights exp(l − top) / Σ exp(l − top) and
  their product with Wh. The reference computes the same quantities on whole arrays. Read at the exact instance
  every format change is the identity and both programs are, entry by entry, the same finite sums, maxima,
  exponentials and quotients of extended reals (Cert.Gat.layer): no law beyond identifying indices joins the two
  sides, so no entry is assumed finite. The idealization rewrote nothing, and each program's frame is its run with
  the result forgotten.
-/
import proofs.«163712_j120259084551_1_alg».proof.Defs
import proofs.«163712_j120259084551_1_alg».proof.Proof.Gen.Kernel
import proofs.«163712_j120259084551_1_alg».proof.Proof.Gen.Kernel.Skeleton
import proofs.«163712_j120259084551_1_alg».proof.Proof.Gen.Kernel.Launch
import proofs.«163712_j120259084551_1_alg».proof.Proof.Gen.Kernel.Points
import proofs.«163712_j120259084551_1_alg».proof.Proof.Gen.Kernel.Frame
import proofs.«163712_j120259084551_1_alg».proof.Proof.Gen.KernelIdeal
import proofs.«163712_j120259084551_1_alg».proof.Proof.Gen.KernelIdeal.Skeleton
import proofs.«163712_j120259084551_1_alg».proof.Proof.Gen.KernelIdeal.Launch
import proofs.«163712_j120259084551_1_alg».proof.Proof.Gen.KernelIdeal.Points
import proofs.«163712_j120259084551_1_alg».proof.Proof.Gen.KernelIdeal.Frame
import proofs.«163712_j120259084551_1_alg».proof.Proof.Gen.ReferenceIdeal
import proofs.«163712_j120259084551_1_alg».proof.Proof.Gen.Pre_finite_inputs
import proofs.«163712_j120259084551_1_alg».proof.Proof.Spec
import proofs.«163712_j120259084551_1_alg».proof.Proof.KValue
import proofs.«163712_j120259084551_1_alg».proof.Proof.RefRun
import proofs.«163712_j120259084551_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result's conjunct dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the five arguments both programs end with the result at the attention layer of those
    arguments: the kernel's two calls compute it block by block, the reference array by array, and entry by entry
    both are the same sums, maxima, exponentials and quotients of extended reals. -/
theorem algebraic : Cert.algebraic_KernelIdeal_ReferenceIdeal := by
  intro m ρ m' ρ' _ hagree
  refine ⟨fun c => Cert.Gat.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefRead.refTerm_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
